-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S4096x4096 : Shape := ⟨2, ![4096, 4096]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 24
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x1024, .f32⟩
  | .hbm, ⟨23, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024, .f32⟩
  | .local _ .vmem, ⟨16, _⟩ => ⟨S1024x1024, .bf16⟩
  | .local _ .vmem, ⟨17, _⟩ => ⟨S1024x1024, .bf16⟩
  | .local _ .vmem, ⟨18, _⟩ => ⟨S128x1024, .f32⟩
  | .local _ .vmem, ⟨19, _⟩ => ⟨S128x1024, .f32⟩
  | .local _ .vmem, ⟨20, _⟩ => ⟨S4096x1024, .f32⟩
  | .local _ .vmem, ⟨21, _⟩ => ⟨S4096x1024, .bf16⟩
  | .local _ .vmem, ⟨22, _⟩ => ⟨S1024x1024, .bf16⟩
  | .local _ .vmem, ⟨23, _⟩ => ⟨S1024, .f32⟩
  | .local _ .vmem, ⟨24, _⟩ => ⟨S128x1024, .f32⟩
  | .local _ .vmem, ⟨25, _⟩ => ⟨S128x1024, .f32⟩
  | .local _ .vmem, ⟨26, _⟩ => ⟨S128x4096, .f32⟩
  | .local _ .vmem, ⟨27, _⟩ => ⟨S128x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem6_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4096x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S128x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x4096 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S128x4096_S128 : S128x4096.Reduces [1] S128
  shapeCasts_S128_S128x1 : S128.ShapeCasts S128x1
  broadcasts_S128x1_S128x4096 : S128x1.Broadcasts S128x4096
  inb_S128x4096_S128x4096_0_0 : ∀ a, (![0, 0] : Fin 2 → Nat) a + S128x4096.size a ≤ S128x4096.size a
  h_S128x4096 : 0 < S128x4096.numel
  broadcasts_S1x1024_S128x1024 : S1x1024.Broadcasts S128x1024
  dot_S1024x1024_S1024x1024_S1024x1024_1_0_0_1_n_n_wf : DotDims.WF S1024x1024 S1024x1024 S1024x1024 [1] [0] [0] [1] [] []
  dot_S128x1024_S4096x1024_S128x4096_1_1_0_0_n_n_wf : DotDims.WF S128x1024 S4096x1024 S128x4096 [1] [1] [0] [0] [] []
  dot_S128x4096_S4096x1024_S128x1024_1_0_0_1_n_n_wf : DotDims.WF S128x4096 S4096x1024 S128x1024 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .bf16 = 32 ∨ (Rect.block (s := S4096x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x1024.size a ≤ S4096x1024.size a
  hwx3_0 : ∀ i : grid3.Coords, EltTy.bits .f32 = 32 ∨ (Rect.block (s := S4096x1024) S128x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x1024.size a ≤ S4096x1024.size a
  hwx3_1 : ∀ i : grid3.Coords, EltTy.bits .f32 = 32 ∨ (Rect.block (s := S4096x1024) S4096x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x1024.size a ≤ S4096x1024.size a
  hwx3_2 : ∀ i : grid3.Coords, EltTy.bits .bf16 = 32 ∨ (Rect.block (s := S4096x1024) S4096x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024.size a ≤ S1024.size a
  hwx3_4 : ∀ i : grid3.Coords, EltTy.bits .f32 = 32 ∨ (Rect.block (s := S1024) S1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S128x1024.size a ≤ S4096x1024.size a
  hwx3_5 : ∀ i : grid3.Coords, EltTy.bits .f32 = 32 ∨ (Rect.block (s := S4096x1024) S128x1024.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S128x4096.size a ≤ S4096x4096.size a
  hwx3_6 : ∀ i : grid3.Coords, EltTy.bits .f32 = 32 ∨ (Rect.block (s := S4096x4096) S128x4096.size (cc3_transform_6 i) (hinb3_6 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v8) S128x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S4096x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S4096x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11_0) S128x1024.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v11_1) S128x4096.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S1024x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S4096x1024, .f32⟩
  | .hbm, ⟨43, _⟩ => ⟨S1024x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.LibRowOps.lean ====
/-
  Row operations of a small dense network on the extended reals.

  A row is a function `Fin n → EReal`. The operations are the ones a layer applies to one row of its input:
  an affine map `x ↦ x · W + b` (a sum of products plus a bias), the rectifier `max · 0`, the mean of a row,
  the row centred at its mean, the mean of the squared centred row, and layer normalisation
  `(x - mean) · rsqrt (var + ε) · g + b`. None of them needs the entries to be finite: they are stated with the
  extended reals' own `+`, `-`, `*`, `max`, division and reciprocal square root, and every later statement
  about them is an equality of two spellings of the same expression.
-/
import Idealize.ShloMosaic.PureOps.Ideal
import Idealize.ShloMosaic.Lib.ValueIdx

noncomputable section

open scoped BigOperators

namespace Cert.LibRowOps

open Idealize.ShloMosaic Idealize.ShloMosaic.ValueIdx

/-- One row of `n` entries. -/
abbrev Row (n : ℕ) := Fin n → EReal
/-- A `K` by `N` matrix as an array holds it. -/
abbrev Mat (K N : ℕ) := (⟨2, ![K, N]⟩ : Shape).Idx → EReal
/-- A vector of length `N` as an array holds it. -/
abbrev Vect (N : ℕ) := (⟨1, ![N]⟩ : Shape).Idx → EReal

/-- Row `p` of a matrix. -/
def rowOf {R K : ℕ} (x : Mat R K) (p : Fin R) : Row K := fun k => x (ix2 p k)

/-- The affine map: entry `n` is `∑ a, x a * w (a, n)` plus the bias at `n`. -/
def affine {K N : ℕ} (x : Row K) (w : Mat K N) (b : Vect N) : Row N :=
  fun n => (∑ a : Fin K, x a * w (ix2 a n)) + b (ix1 n)

/-- The rectifier, entry by entry, against the float zero. -/
def relu {N : ℕ} (x : Row N) : Row N := fun n => max (x n) (Ideal.ofBits .f32 0x00000000#32)

/-- The mean of a row: its sum divided by the float `d` (the row's length as the program spells it). -/
def mean {N : ℕ} (d : EReal) (x : Row N) : EReal := Ideal.div (∑ k : Fin N, x k) d

/-- The row with its mean taken off. -/
def centred {N : ℕ} (d : EReal) (x : Row N) : Row N := fun n => x n - mean d x

/-- The mean of the squares of the centred row. -/
def variance {N : ℕ} (d : EReal) (x : Row N) : EReal :=
  Ideal.div (∑ k : Fin N, centred d x k * centred d x k) d

/-- Scaling a centred row `c` by the reciprocal root of `v + ε`, then by a gain and a shift. -/
def rescale {N : ℕ} (ε : EReal) (c : Row N) (v : EReal) (g b : Vect N) : Row N :=
  fun n => c n * Ideal.rsqrt (v + ε) * g (ix1 n) + b (ix1 n)

/-- Layer normalisation of a row. -/
def layerNorm {N : ℕ} (d ε : EReal) (x : Row N) (g b : Vect N) : Row N :=
  rescale ε (centred d x) (variance d x) g b

/-- Clamping to `[lo, hi]` followed by the logistic function. -/
def squash (lo hi x : EReal) : EReal := Ideal.logistic (min hi (max lo x))

end Cert.LibRowOps

end
-- ==== Proof.AttentionSpec.lean ====
/-
  Single-head attention without scaling, stated on the extended reals, row by row.

  With the row operations of a dense layer (`Cert.LibRowOps`: a row is `Fin n → EReal`, a matrix an array of shape
  `[K, N]`), the attention of one query row `q` against the key rows `k` and the value rows `v` is:
  the scores `s j = ∑ a, q a * k (j, a)`; their maximum, taken as a fold of `max` starting from minus infinity;
  the weights `w j = exp (s j - max) / ∑ j', exp (s j' - max)`; and the mixture `∑ j, w j * v (j, d)`.
  A linear layer `x ↦ x · Wᵀ + b` is the affine map of a row with the transposed weight matrix.
  Nothing here needs the entries to be finite: every operation is the extended reals' own, and the two programs
  this is compared with apply the same operations in the same order, up to the grouping of a sum.
-/
import proofs.«156186_j63642825392306_2_alg».proof.Proof.LibRowOps

noncomputable section

open scoped BigOperators

namespace Cert.AttentionSpec

open Idealize.ShloMosaic Idealize.ShloMosaic.ValueIdx Cert.LibRowOps

/-- The transposed matrix: entry `(a, b)` is the operand's entry `(b, a)`. -/
def tr {A B : ℕ} (w : Mat A B) : Mat B A := fun i => w (ix2 (i 1) (i 0))

theorem tr_ix2 {A B : ℕ} (w : Mat A B) (b : Fin B) (a : Fin A) : tr w (ix2 b a) = w (ix2 a b) := rfl

/-- A dense layer with the weight matrix already laid out as `[K, N]`: row `r` of the result is the affine map of
    row `r` of the operand. -/
def lin {R K N : ℕ} (x : Mat R K) (w : Mat K N) (b : Vect N) : Mat R N :=
  fun i => affine (rowOf x (i 0)) w b (i 1)

theorem lin_ix2 {R K N : ℕ} (x : Mat R K) (w : Mat K N) (b : Vect N) (r : Fin R) (n : Fin N) :
    lin x w b (ix2 r n) = affine (rowOf x r) w b n := rfl

/-- The scores of one query row against every key row: `s j = ∑ a, q a * k (j, a)`. -/
def scoreRow {K N : ℕ} (q : Row K) (k : Mat N K) : Row N := fun j => ∑ a : Fin K, q a * k (ix2 j a)

/-- The maximum of a row, as the fold of `max` from minus infinity (the float pattern `0xFF800000`). -/
def rowMax {N : ℕ} (s : Row N) : EReal :=
  (Finset.univ : Finset (Fin N)).fold max (Ideal.ofBits .f32 0xFF800000#32) s

/-- The softmax of a row: each entry less the row's maximum, exponentiated, over the sum of those exponentials. -/
def softmaxRow {N : ℕ} (s : Row N) : Row N :=
  fun j => Ideal.div (Ideal.exp (s j - rowMax s)) (∑ k : Fin N, Ideal.exp (s k - rowMax s))

/-- A row of weights applied to the value rows: `∑ j, a j * v (j, d)`. -/
def mixRow {N D : ℕ} (a : Row N) (v : Mat N D) : Row D := fun d => ∑ j : Fin N, a j * v (ix2 j d)

/-- The attention weights of every query row. -/
def weights {R K N : ℕ} (qp : Mat R K) (kp : Mat N K) : Mat R N :=
  fun i => softmaxRow (scoreRow (rowOf qp (i 0)) kp) (i 1)

theorem weights_ix2 {R K N : ℕ} (qp : Mat R K) (kp : Mat N K) (r : Fin R) (j : Fin N) :
    weights qp kp (ix2 r j) = softmaxRow (scoreRow (rowOf qp r) kp) j := rfl

/-- The attended values passed through the output layer, its weight matrix laid out as `[D, E]`. -/
def attended {R K N D E : ℕ} (qp : Mat R K) (kp : Mat N K) (vp : Mat N D) (wo : Mat D E) (bo : Vect E) : Mat R E :=
  fun i => affine (mixRow (softmaxRow (scoreRow (rowOf qp (i 0)) kp)) vp) wo bo (i 1)

theorem attended_ix2 {R K N D E : ℕ} (qp : Mat R K) (kp : Mat N K) (vp : Mat N D) (wo : Mat D E) (bo : Vect E)
    (r : Fin R) (e : Fin E) :
    attended qp kp vp wo bo (ix2 r e) = affine (mixRow (softmaxRow (scoreRow (rowOf qp r) kp)) vp) wo bo e := rfl

/-- The whole layer's first result: queries, keys and values each through their own linear layer
    (`x · Wᵀ + b`), attention, then the output layer. -/
def resultX {N D : ℕ} (q k v : Mat N D) (wq : Mat D D) (bq : Vect D) (wk : Mat D D) (bk : Vect D)
    (wv : Mat D D) (bv : Vect D) (wo : Mat D D) (bo : Vect D) : Mat N D :=
  attended (lin q (tr wq) bq) (lin k (tr wk) bk) (lin v (tr wv) bv) (tr wo) bo

/-- The whole layer's second result: the attention weights. -/
def resultW {N D : ℕ} (q k : Mat N D) (wq : Mat D D) (bq : Vect D) (wk : Mat D D) (bk : Vect D) : Mat N N :=
  weights (lin q (tr wq) bq) (lin k (tr wk) bk)

end Cert.AttentionSpec

end
-- ==== Proof.KernelRun.lean ====
/-
  The kernel program's run with its two results named.

  The program is a stretch of host operations (four weight transposes, each followed by a narrowing to bf16) and then
  four pipelined kernel regions. Between any two of these segments the contents of every buffer are a function of the
  launch memory alone: the host stretch applies its operations in order, and a region replaces the arrays of its windows
  by what its write-backs leave and keeps every other buffer. Every weakly fair execution terminates without a fault in a
  state whose unscoped buffers hold the last of these contents; here that fact is read at the two result arrays as well as
  at the eleven argument arrays.
-/
import proofs.«156186_j63642825392306_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result arrays holding the contents
    the last region leaves (`W5`) and the argument arrays as launched. -/
theorem run : θ_run defs (onTc (τ := τ) (main (F := F))) ⟨m, fun _ => 0, ρ⟩ (fun r => ∀ c : Dev nD,
      r.2.mem ((c.tc : Thread nD τ).loc main_v11_0) = W5 m ρ c (Proc.devRef .tc main_v11_0)
      ∧ r.2.mem ((c.tc : Thread nD τ).loc main_v11_1) = W5 m ρ c (Proc.devRef .tc main_v11_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11_0 (by decide)),
       h c _ (mem_uc main_v11_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.RunValue

end
-- ==== Proof.KernelValue.lean ====
/-
  The kernel program's two result arrays as functions of its eleven argument arrays.

  The host stretch writes, for each of the four weight matrices, its transpose (narrowed to bf16: the same numbers in
  exact arithmetic) and touches nothing else. Region 0 then writes the projected queries, region 1 the projected keys,
  region 2 the projected values, each the dense layer of its activations with the transposed weights and the bias; every
  region leaves all buffers other than its own windows' arrays as it found them, so each later region finds the earlier
  results and the launch arguments unchanged. Region 3 writes the attention weights and the attended, projected output
  from the three projections. Reading the chain of boundary contents backwards from the last one gives the two results
  as `Cert.AttentionSpec.resultX` and `resultW` of the launch arguments.
-/
import proofs.«156186_j63642825392306_2_alg».proof.Proof.Gen.KernelIdeal.Frame
import proofs.«156186_j63642825392306_2_alg».proof.Proof.AttentionSpec
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.Tactic Idealize.ShloMosaic.ValueIdx
open Idealize.SL.Sem Cert.LibRowOps Cert.AttentionSpec

variable (m : (ℓ : Loc nD τ sig) → Buf (Elt Ideal) ℓ) (ρ : Dev nD → PrngReg)

/-- A weight matrix transposed and narrowed to bf16 is, entry by entry, the transposed matrix. -/
theorem narrowed_transpose (x : (⟨S1024x1024, .f32⟩ : BufTy).Contents (Elt Ideal)) :
    truncf (F := Ideal) .bf16 (transpose S1024x1024 [1, 0] x transposes_S1024x1024_S1024x1024_1_0) bitsLt_bf16_f32
      = (tr x : Mat 1024 1024) := by
  funext i
  show transpose S1024x1024 [1, 0] x transposes_S1024x1024_S1024x1024_1_0 i = x (ix2 (i 1) (i 0))
  exact transpose_apply [1, 0] x transposes_S1024x1024_S1024x1024_1_0 i (ix2 (i 1) (i 0)) (fun b => match b with
    | ⟨0, _⟩ => rfl
    | ⟨1, _⟩ => rfl)

/-! ## After the host stretch -/

theorem host_wq (c : Dev nD) : W1 m ρ c (Proc.devRef .tc main_v1) = (tr (m ((c : Thread nD τ).loc main_arg3)) : Mat 1024 1024) := by
  show StableHlo.after hostOps0 (W0 m ρ c) (Proc.devRef .tc main_v1) = _
  after_results
  exact narrowed_transpose _
theorem host_wk (c : Dev nD) : W1 m ρ c (Proc.devRef .tc main_v3) = (tr (m ((c : Thread nD τ).loc main_arg5)) : Mat 1024 1024) := by
  show StableHlo.after hostOps0 (W0 m ρ c) (Proc.devRef .tc main_v3) = _
  after_results
  exact narrowed_transpose _
theorem host_wv (c : Dev nD) : W1 m ρ c (Proc.devRef .tc main_v5) = (tr (m ((c : Thread nD τ).loc main_arg7)) : Mat 1024 1024) := by
  show StableHlo.after hostOps0 (W0 m ρ c) (Proc.devRef .tc main_v5) = _
  after_results
  exact narrowed_transpose _
theorem host_wo (c : Dev nD) : W1 m ρ c (Proc.devRef .tc main_v7) = (tr (m ((c : Thread nD τ).loc main_arg9)) : Mat 1024 1024) := by
  show StableHlo.after hostOps0 (W0 m ρ c) (Proc.devRef .tc main_v7) = _
  after_results
  exact narrowed_transpose _

/-- The host stretch writes no argument array. -/
theorem host_arg0 (c : Dev nD) : W1 m ρ c (Proc.devRef .tc main_arg0) = m ((c : Thread nD τ).loc main_arg0) := by
  show StableHlo.after hostOps0 (W0 m ρ c) (Proc.devRef .tc main_arg0) = _
  after_results
theorem host_arg1 (c : Dev nD) : W1 m ρ c (Proc.devRef .tc main_arg1) = m ((c : Thread nD τ).loc main_arg1) := by
  show StableHlo.after hostOps0 (W0 m ρ c) (Proc.devRef .tc main_arg1) = _
  after_results
theorem host_arg2 (c : Dev nD) : W1 m ρ c (Proc.devRef .tc main_arg2) = m ((c : Thread nD τ).loc main_arg2) := by
  show StableHlo.after hostOps0 (W0 m ρ c) (Proc.devRef .tc main_arg2) = _
  after_results
theorem host_arg4 (c : Dev nD) : W1 m ρ c (Proc.devRef .tc main_arg4) = m ((c : Thread nD τ).loc main_arg4) := by
  show StableHlo.after hostOps0 (W0 m ρ c) (Proc.devRef .tc main_arg4) = _
  after_results
theorem host_arg6 (c : Dev nD) : W1 m ρ c (Proc.devRef .tc main_arg6) = m ((c : Thread nD τ).loc main_arg6) := by
  show StableHlo.after hostOps0 (W0 m ρ c) (Proc.devRef .tc main_arg6) = _
  after_results
theorem host_arg8 (c : Dev nD) : W1 m ρ c (Proc.devRef .tc main_arg8) = m ((c : Thread nD τ).loc main_arg8) := by
  show StableHlo.after hostOps0 (W0 m ρ c) (Proc.devRef .tc main_arg8) = _
  after_results
theorem host_arg10 (c : Dev nD) : W1 m ρ c (Proc.devRef .tc main_arg10) = m ((c : Thread nD τ).loc main_arg10) := by
  show StableHlo.after hostOps0 (W0 m ρ c) (Proc.devRef .tc main_arg10) = _
  after_results

/-! ## Through the regions

Each hypothesis below is one region's array after its last write-back, as a function of the arrays the region found
(the blocks-to-array modules prove them for any entry contents). -/

section Regions

variable
  (hq : ∀ (V : (c : Dev nD) → (b : Ref sig .tc) → Buf (Elt Ideal) ((c : Thread nD τ).loc b)) (c : Dev nD),
    (dat0 (F := Ideal) V c).arrAt 3 cfg0.N
      = lin (V c (Pipeline.arrRef spec0 0)) (V c (Pipeline.arrRef spec0 1)) (V c (Pipeline.arrRef spec0 2)))
  (hk : ∀ (V : (c : Dev nD) → (b : Ref sig .tc) → Buf (Elt Ideal) ((c : Thread nD τ).loc b)) (c : Dev nD),
    (dat1 (F := Ideal) V c).arrAt 3 cfg1.N
      = lin (V c (Pipeline.arrRef spec1 0)) (V c (Pipeline.arrRef spec1 1)) (V c (Pipeline.arrRef spec1 2)))
  (hv : ∀ (V : (c : Dev nD) → (b : Ref sig .tc) → Buf (Elt Ideal) ((c : Thread nD τ).loc b)) (c : Dev nD),
    (dat2 (F := Ideal) V c).arrAt 3 cfg2.N
      = lin (V c (Pipeline.arrRef spec2 0)) (V c (Pipeline.arrRef spec2 1)) (V c (Pipeline.arrRef spec2 2)))

include hq in
/-- The projected queries, as region 3 finds them. -/
theorem queries (c : Dev nD) : W4 m ρ c (Proc.devRef .tc main_v8)
    = lin (m ((c : Thread nD τ).loc main_arg0)) (tr (m ((c : Thread nD τ).loc main_arg3))) (m ((c : Thread nD τ).loc main_arg4)) := by
  rw [W4_of_ne m ρ c main_v8 (by decide), W3_of_ne m ρ c main_v8 (by decide)]
  refine (W2_arr m ρ c 3).trans ((hq (V1 m ρ) c).trans ?_)
  show lin (W1 m ρ c (Proc.devRef .tc main_arg0)) (W1 m ρ c (Proc.devRef .tc main_v1)) (W1 m ρ c (Proc.devRef .tc main_arg4)) = _
  rw [host_arg0, host_wq, host_arg4]

include hk in
/-- The projected keys, as region 3 finds them. -/
theorem keys (c : Dev nD) : W4 m ρ c (Proc.devRef .tc main_v9)
    = lin (m ((c : Thread nD τ).loc main_arg1)) (tr (m ((c : Thread nD τ).loc main_arg5))) (m ((c : Thread nD τ).loc main_arg6)) := by
  rw [W4_of_ne m ρ c main_v9 (by decide)]
  refine (W3_arr m ρ c 3).trans ((hk (V2 m ρ) c).trans ?_)
  show lin (W2 m ρ c (Proc.devRef .tc main_arg1)) (W2 m ρ c (Proc.devRef .tc main_v3)) (W2 m ρ c (Proc.devRef .tc main_arg6)) = _
  rw [W2_of_ne m ρ c main_arg1 (by decide), W2_of_ne m ρ c main_v3 (by decide), W2_of_ne m ρ c main_arg6 (by decide),
    host_arg1, host_wk, host_arg6]

include hv in
/-- The projected values, as region 3 finds them. -/
theorem values (c : Dev nD) : W4 m ρ c (Proc.devRef .tc main_v10)
    = lin (m ((c : Thread nD τ).loc main_arg2)) (tr (m ((c : Thread nD τ).loc main_arg7))) (m ((c : Thread nD τ).loc main_arg8)) := by
  refine (W4_arr m ρ c 3).trans ((hv (V3 m ρ) c).trans ?_)
  show lin (W3 m ρ c (Proc.devRef .tc main_arg2)) (W3 m ρ c (Proc.devRef .tc main_v5)) (W3 m ρ c (Proc.devRef .tc main_arg8)) = _
  rw [W3_of_ne m ρ c main_arg2 (by decide), W3_of_ne m ρ c main_v5 (by decide), W3_of_ne m ρ c main_arg8 (by decide),
    W2_of_ne m ρ c main_arg2 (by decide), W2_of_ne m ρ c main_v5 (by decide), W2_of_ne m ρ c main_arg8 (by decide),
    host_arg2, host_wv, host_arg8]

/-- The transposed output weights and the output bias, as region 3 finds them. -/
theorem out_weights (c : Dev nD) : W4 m ρ c (Proc.devRef .tc main_v7) = (tr (m ((c : Thread nD τ).loc main_arg9)) : Mat 1024 1024) := by
  rw [W4_of_ne m ρ c main_v7 (by decide), W3_of_ne m ρ c main_v7 (by decide), W2_of_ne m ρ c main_v7 (by decide), host_wo]
theorem out_bias (c : Dev nD) : W4 m ρ c (Proc.devRef .tc main_arg10) = m ((c : Thread nD τ).loc main_arg10) := by
  rw [W4_of_ne m ρ c main_arg10 (by decide), W3_of_ne m ρ c main_arg10 (by decide), W2_of_ne m ρ c main_arg10 (by decide), host_arg10]

variable
  (hw : ∀ (V : (c : Dev nD) → (b : Ref sig .tc) → Buf (Elt Ideal) ((c : Thread nD τ).loc b)) (c : Dev nD),
    (dat3 (F := Ideal) V c).arrAt 6 cfg3.N = weights (V c (Pipeline.arrRef spec3 0)) (V c (Pipeline.arrRef spec3 1)))
  (hx : ∀ (V : (c : Dev nD) → (b : Ref sig .tc) → Buf (Elt Ideal) ((c : Thread nD τ).loc b)) (c : Dev nD),
    (dat3 (F := Ideal) V c).arrAt 5 cfg3.N
      = attended (V c (Pipeline.arrRef spec3 0)) (V c (Pipeline.arrRef spec3 1)) (V c (Pipeline.arrRef spec3 2))
          (V c (Pipeline.arrRef spec3 3)) (V c (Pipeline.arrRef spec3 4)))

include hq hk hw in
/-- The second result: the attention weights of the projected queries against the projected keys. -/
theorem result_weights (c : Dev nD) : W5 m ρ c (Proc.devRef .tc main_v11_1)
    = resultW (m ((c : Thread nD τ).loc main_arg0)) (m ((c : Thread nD τ).loc main_arg1))
        (m ((c : Thread nD τ).loc main_arg3)) (m ((c : Thread nD τ).loc main_arg4))
        (m ((c : Thread nD τ).loc main_arg5)) (m ((c : Thread nD τ).loc main_arg6)) := by
  refine (W5_arr m ρ c 6).trans ((hw (V4 m ρ) c).trans ?_)
  show weights (W4 m ρ c (Proc.devRef .tc main_v8)) (W4 m ρ c (Proc.devRef .tc main_v9)) = _
  rw [queries m ρ hq c, keys m ρ hk c]
  rfl

include hq hk hv hx in
/-- The first result: attention applied to the projected values, through the output layer. -/
theorem result_x (c : Dev nD) : W5 m ρ c (Proc.devRef .tc main_v11_0)
    = resultX (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6))
        (m ((c : Thread nD τ).loc main_arg7)) (m ((c : Thread nD τ).loc main_arg8))
        (m ((c : Thread nD τ).loc main_arg9)) (m ((c : Thread nD τ).loc main_arg10)) := by
  refine (W5_arr m ρ c 5).trans ((hx (V4 m ρ) c).trans ?_)
  show attended (W4 m ρ c (Proc.devRef .tc main_v8)) (W4 m ρ c (Proc.devRef .tc main_v9)) (W4 m ρ c (Proc.devRef .tc main_v10))
      (W4 m ρ c (Proc.devRef .tc main_v7)) (W4 m ρ c (Proc.devRef .tc main_arg10)) = _
  rw [queries m ρ hq c, keys m ρ hk c, values m ρ hv c, out_weights m ρ c, out_bias m ρ c]
  rfl

end Regions

end Cert.KernelIdeal.Chain

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibBlockLayers.lean ====
/-
  The layers of a small dense network as a kernel's vector operations apply them to a block of rows, read at an
  entry in exact arithmetic, for any extents.

  A block is an `R` by `K` array of activations. Each statement says that one group of vector operations, read at
  the entry `(p, q)`, is a row operation (`Cert.LibRowOps`) of row `p` of the block alone: the matrix product into
  a zero accumulator with the bias repeated over the rows is the affine map of the row; the lane sum divided by a
  splat is the row's mean; subtracting a column repeated along the lanes centres the row; and so on. A change of
  float format is the identity in exact arithmetic, so the narrowing before a product does not appear on the right.
-/
import proofs.«156186_j63642825392306_2_alg».proof.Proof.LibRowOps
import proofs.«156186_j63642825392306_2_alg».proof.Proof.LibPlainDot
import proofs.«156186_j63642825392306_2_alg».proof.Proof.LibVectorReads
import proofs.«156186_j63642825392306_2_alg».proof.Proof.LibLayout

noncomputable section

open scoped BigOperators

namespace Cert.LibBlockLayers

open Idealize.ShloMosaic Idealize.ShloMosaic.ValueIdx Cert.LibRowOps

/-- A product with plain dimension numbers into the zero accumulator, plus a bias vector repeated over the rows,
    at `(p, q)`: the affine map of row `p`. -/
theorem affine_block_apply {R K N : ℕ}
    (D : DotDims ⟨2, ![R, K]⟩ ⟨2, ![K, N]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![R, K]⟩ .f32) (hlt : FTy.bf16.bits < FTy.f32.bits)
    (w : FVec Ideal ⟨2, ![K, N]⟩ .bf16) (hw : (⟨2, ![K, N]⟩ : Shape).ShapeCasts ⟨2, ![K, N]⟩)
    (b : FVec Ideal ⟨1, ![N]⟩ .f32) (hc : (⟨1, ![N]⟩ : Shape).ShapeCasts ⟨2, ![1, N]⟩)
    (hb : (⟨2, ![1, N]⟩ : Shape).Broadcasts ⟨2, ![R, N]⟩) (p : Fin R) (q : Fin N) :
    addf (matmul D none (truncf .bf16 x hlt) (shapeCast ⟨2, ![K, N]⟩ w hw) (constant ⟨2, ![R, N]⟩ .f32 0x00000000#32))
        (broadcastTo ⟨2, ![R, N]⟩ (shapeCast ⟨2, ![1, N]⟩ b hc) hb) (ix2 p q)
      = affine (rowOf x p) w b q := by
  show FloatOps.matmul D none (truncf .bf16 x hlt) (shapeCast ⟨2, ![K, N]⟩ w hw) (constant ⟨2, ![R, N]⟩ .f32 0x00000000#32) (ix2 p q)
      + broadcastTo ⟨2, ![R, N]⟩ (shapeCast ⟨2, ![1, N]⟩ b hc) hb (ix2 p q) = _
  rw [Cert.LibPlainDot.matmul_zero_plain D hr hs hl0 hl1 hr0 hr1, Cert.LibVectorReads.bias_rows_apply, shapeCast_self]
  rfl

/-- The rectifier against a splat of the float zero, at any index. -/
theorem relu_block_apply {s : Shape} (v : FVec Ideal s .f32) (i : s.Idx) :
    maximumf v (broadcast s (Scalar.ofBits (F := Ideal) .f32 0x00000000#32)) i
      = max (v i) (Ideal.ofBits .f32 0x00000000#32) := rfl

/-- The lane sum of a block, laid out as a column and divided by a splat `d`, at `(p, z)`: the mean of row `p`. -/
theorem mean_block_apply {R N : ℕ} (v : FVec Ideal ⟨2, ![R, N]⟩ .f32)
    (h : (⟨2, ![R, N]⟩ : Shape).Reduces [(1 : Fin 2)] ⟨1, ![R]⟩) (hφ : FKind.Formats .f32)
    (hacc : (0x00000000#32 : BitVec 32) = FKind.add.neutral .f32 hφ)
    (hc : (⟨1, ![R]⟩ : Shape).ShapeCasts ⟨2, ![R, 1]⟩) (d : Ideal .f32) (p : Fin R) (z : Fin 1) :
    divf (shapeCast ⟨2, ![R, 1]⟩ (multiReduction .add [(1 : Fin 2)] ⟨1, ![R]⟩ v 0x00000000#32 h hφ hacc) hc)
        (broadcast ⟨2, ![R, 1]⟩ d) (ix2 p z)
      = mean d (rowOf v p) := by
  show Ideal.div (shapeCast ⟨2, ![R, 1]⟩ (multiReduction .add [(1 : Fin 2)] ⟨1, ![R]⟩ v 0x00000000#32 h hφ hacc) hc (ix2 p z)) d = _
  rw [Cert.LibLayout.shapeCast_a_a1_apply, Cert.LibVectorReads.sum_last2_apply]
  rfl

/-- A block less a column repeated along the lanes, at `(p, q)`. -/
theorem sub_column_block_apply {R N : ℕ} (v : FVec Ideal ⟨2, ![R, N]⟩ .f32) (col : FVec Ideal ⟨2, ![R, 1]⟩ .f32)
    (hb : (⟨2, ![R, 1]⟩ : Shape).Broadcasts ⟨2, ![R, N]⟩) (p : Fin R) (q : Fin N) :
    subf v (broadcastTo ⟨2, ![R, N]⟩ col hb) (ix2 p q) = v (ix2 p q) - col (ix2 p (0 : Fin 1)) := by
  show v (ix2 p q) - broadcastTo ⟨2, ![R, N]⟩ col hb (ix2 p q) = _
  rw [Cert.LibLayout.broadcastTo_a1_ab_apply]

/-- A centred block `c` times the reciprocal root of a column `v` plus a splat `ε`, times a gain vector and plus a shift
    vector, both repeated over the rows, at `(p, q)`. -/
theorem rescale_block_apply {R N : ℕ} (c : FVec Ideal ⟨2, ![R, N]⟩ .f32) (v : FVec Ideal ⟨2, ![R, 1]⟩ .f32)
    (ε : Ideal .f32) (g b : FVec Ideal ⟨1, ![N]⟩ .f32)
    (hv : (⟨2, ![R, 1]⟩ : Shape).Broadcasts ⟨2, ![R, N]⟩)
    (hcg : (⟨1, ![N]⟩ : Shape).ShapeCasts ⟨2, ![1, N]⟩) (hbg : (⟨2, ![1, N]⟩ : Shape).Broadcasts ⟨2, ![R, N]⟩)
    (hcb : (⟨1, ![N]⟩ : Shape).ShapeCasts ⟨2, ![1, N]⟩) (hbb : (⟨2, ![1, N]⟩ : Shape).Broadcasts ⟨2, ![R, N]⟩)
    (p : Fin R) (q : Fin N) :
    addf (mulf (mulf c (broadcastTo ⟨2, ![R, N]⟩ (rsqrt (addf v (broadcast ⟨2, ![R, 1]⟩ ε))) hv))
          (broadcastTo ⟨2, ![R, N]⟩ (shapeCast ⟨2, ![1, N]⟩ g hcg) hbg))
        (broadcastTo ⟨2, ![R, N]⟩ (shapeCast ⟨2, ![1, N]⟩ b hcb) hbb) (ix2 p q)
      = rescale ε (rowOf c p) (v (ix2 p (0 : Fin 1))) g b q := by
  show c (ix2 p q) * broadcastTo ⟨2, ![R, N]⟩ (rsqrt (addf v (broadcast ⟨2, ![R, 1]⟩ ε))) hv (ix2 p q)
        * broadcastTo ⟨2, ![R, N]⟩ (shapeCast ⟨2, ![1, N]⟩ g hcg) hbg (ix2 p q)
      + broadcastTo ⟨2, ![R, N]⟩ (shapeCast ⟨2, ![1, N]⟩ b hcb) hbb (ix2 p q) = _
  rw [Cert.LibLayout.broadcastTo_a1_ab_apply, Cert.LibVectorReads.bias_rows_apply, Cert.LibVectorReads.bias_rows_apply]
  rfl

/-- A dense layer followed by the rectifier, at `(p, q)`. -/
theorem relu_affine_block_apply {R K N : ℕ}
    (D : DotDims ⟨2, ![R, K]⟩ ⟨2, ![K, N]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![R, K]⟩ .f32) (hlt : FTy.bf16.bits < FTy.f32.bits)
    (w : FVec Ideal ⟨2, ![K, N]⟩ .bf16) (hw : (⟨2, ![K, N]⟩ : Shape).ShapeCasts ⟨2, ![K, N]⟩)
    (b : FVec Ideal ⟨1, ![N]⟩ .f32) (hc : (⟨1, ![N]⟩ : Shape).ShapeCasts ⟨2, ![1, N]⟩)
    (hb : (⟨2, ![1, N]⟩ : Shape).Broadcasts ⟨2, ![R, N]⟩) (p : Fin R) (q : Fin N) :
    maximumf (addf (matmul D none (truncf .bf16 x hlt) (shapeCast ⟨2, ![K, N]⟩ w hw) (constant ⟨2, ![R, N]⟩ .f32 0x00000000#32))
          (broadcastTo ⟨2, ![R, N]⟩ (shapeCast ⟨2, ![1, N]⟩ b hc) hb))
        (broadcast ⟨2, ![R, N]⟩ (Scalar.ofBits (F := Ideal) .f32 0x00000000#32)) (ix2 p q)
      = relu (affine (rowOf x p) w b) q :=
  (relu_block_apply _ _).trans
    (congrArg (max · (Ideal.ofBits .f32 0x00000000#32)) (affine_block_apply D hr hs hl0 hl1 hr0 hr1 x hlt w hw b hc hb p q))

/-- Clamping between two splats followed by the logistic function, at any index. -/
theorem squash_block_apply {s : Shape} (v : FVec Ideal s .f32) (lo hi : Ideal .f32) (i : s.Idx) :
    logistic (minimumf (broadcast s hi) (maximumf (broadcast s lo) v)) i = squash lo hi (v i) := rfl

/-- A sum of two blocks, at any index. -/
theorem add_block_apply {s : Shape} (v w : FVec Ideal s .f32) (i : s.Idx) : addf v w i = v i + w i := rfl

end Cert.LibBlockLayers

end
-- ==== Proof.LibRowDot.lean ====
/-
  A matrix product whose right factor is contracted along its SECOND axis: `x · wᵀ` without a separate transposition.

  A matrix unit fed an `R × K` left factor and an `N × K` right factor, with dimension numbers that contract the
  second axis of both (`[1] × [1]`, nothing batched), accumulated into the zero matrix and read at exact arithmetic, is
  at the entry `(p, n)` the sum over the contracted coordinate `a : Fin K` of `l (p, a) * r (n, a)`; accumulated into any
  matrix `acc` it is `acc (p, n)` plus that sum. The four hypotheses say the dimension numbers are the ones described:
  each factor's index takes its row from the output index (the left factor from the output's row, the right factor
  from the output's column) and its column from the contraction index. Any extents, any float formats of the factors.
-/
import Idealize.ShloMosaic.PureOps.Ideal.Laws
import Idealize.ShloMosaic.Lib.ValueIdx

noncomputable section

open scoped BigOperators

namespace Cert.LibRowDot

open Idealize.ShloMosaic Idealize.ShloMosaic.ValueIdx

/-- `x · wᵀ` accumulated into `acc`, read at `(p, n)` in exact arithmetic: `acc (p, n) + ∑ a, l (p, a) * r (n, a)`. -/
theorem matmul_rows {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (acc : FVec Ideal ⟨2, ![R, N]⟩ .f32) (p : Fin R) (n : Fin N) :
    FloatOps.matmul D prec l r acc (ix2 p n) = acc (ix2 p n) + ∑ a : Fin K, l (ix2 p a) * r (ix2 n a) := by
  rw [Ideal.matmul_apply, ← Equiv.sum_comp (contrEquiv1 D K hr hs).symm]
  refine congrArg (acc (ix2 p n) + ·) (Finset.sum_congr rfl fun k _ => ?_)
  have hk := contrEquiv1_symm_val D K hr hs k
  have el : D.lhsIdx (ix2 p n) ((contrEquiv1 D K hr hs).symm k) = ix2 p k := funext fun a => Fin.ext (by
    match a with
    | ⟨0, _⟩ => exact hl0 _ _
    | ⟨1, _⟩ => exact (hl1 _ _).trans hk)
  have er : D.rhsIdx (ix2 p n) ((contrEquiv1 D K hr hs).symm k) = ix2 n k := funext fun a => Fin.ext (by
    match a with
    | ⟨0, _⟩ => exact hr0 _ _
    | ⟨1, _⟩ => exact (hr1 _ _).trans hk)
  rw [el, er]

/-- The same accumulated into the zero matrix: the sum alone. -/
theorem matmul_rows_zero {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (p : Fin R) (n : Fin N) :
    FloatOps.matmul D prec l r (constant ⟨2, ![R, N]⟩ .f32 0x00000000#32) (ix2 p n)
      = ∑ a : Fin K, l (ix2 p a) * r (ix2 n a) := by
  rw [matmul_rows D hr hs hl0 hl1 hr0 hr1 prec l r _ p n]
  show Ideal.ofBits .f32 0x00000000#32 + _ = _
  rw [Ideal.ofBits_zero_f32, zero_add]

end Cert.LibRowDot

end
-- ==== Proof.KernelPayloads.lean ====
/-
  What each kernel body computes for one block, read at an entry on the extended reals.

  The three projection kernels each store, for a block of 1024 rows, the affine map of every row: the product of the
  row (narrowed to bf16, which changes nothing in exact arithmetic) with the already transposed weight block, plus the
  bias. The attention kernel stores, for a block of 128 query rows against all 4096 key rows, the softmax of the
  scores of every row, and the mixture of the value rows under those weights passed through the output layer.
-/
import proofs.«156186_j63642825392306_2_alg».proof.Proof.Gen.KernelIdeal.Skeleton
import proofs.«156186_j63642825392306_2_alg».proof.Proof.AttentionSpec
import proofs.«156186_j63642825392306_2_alg».proof.Proof.LibBlockLayers
import proofs.«156186_j63642825392306_2_alg».proof.Proof.LibRowDot
import Idealize.ShloMosaic.Lib.ValueIdx
import Idealize.ShloMosaic.PureOps.Ideal.Laws

noncomputable section

open scoped BigOperators

namespace Cert.KernelIdeal.Payloads

open Idealize.ShloMosaic Idealize.ShloMosaic.ValueIdx Cert.KernelIdeal Cert.LibRowOps Cert.AttentionSpec

/-! ### The dimension numbers of the four products

Each record contracts one axis of each factor and batches nothing. The facts below say where each factor's index
takes its two coordinates from: one from the output index, the other from the contraction index. -/

section Records

/-- Plain dimension numbers: the left factor is read at (row of the output, contraction index). -/
theorem lin_l0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lin_l1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem lin_r0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem lin_r1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The score product contracts the second axis of BOTH factors: the right factor is read at
    (column of the output, contraction index). -/
theorem sc_l0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide),
    dif_pos (show (0 : Fin S128x1024.rank) ∈ dot_S128x1024_S4096x1024_S128x4096_1_1_0_0_n_n.lhsNonContracting by decide)]
  rfl
theorem sc_l1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
theorem sc_r0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide),
    dif_pos (show (0 : Fin S4096x1024.rank) ∈ dot_S128x1024_S4096x1024_S128x4096_1_1_0_0_n_n.rhsNonContracting by decide)]
  rfl
theorem sc_r1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-- The product of the weights with the value rows: plain dimension numbers. -/
theorem mix_l0 (i : S128x1024.Idx) (q : dot_S128x4096_S4096x1024_S128x1024_1_0_0_1_n_n.contr.Idx) :
    (dot_S128x4096_S4096x1024_S128x1024_1_0_0_1_n_n.lhsIdx i q 0).val = (i 0).val := by
  unfold DotDims.lhsIdx
  rw [dif_neg (show ¬(0 : Fin S128x4096.rank) ∈ dot_S128x4096_S4096x1024_S128x1024_1_0_0_1_n_n.lhsBatch by decide),
    dif_pos (show (0 : Fin S128x4096.rank) ∈ dot_S128x4096_S4096x1024_S128x1024_1_0_0_1_n_n.lhsNonContracting by decide)]
  rfl
theorem mix_l1 (i : S128x1024.Idx) (q : dot_S128x4096_S4096x1024_S128x1024_1_0_0_1_n_n.contr.Idx) :
    (dot_S128x4096_S4096x1024_S128x1024_1_0_0_1_n_n.lhsIdx i q 1).val = (q ⟨0, by decide⟩).val :=
  dot_S128x4096_S4096x1024_S128x1024_1_0_0_1_n_n.lhsIdx_val_of_single rfl i q
theorem mix_r0 (i : S128x1024.Idx) (q : dot_S128x4096_S4096x1024_S128x1024_1_0_0_1_n_n.contr.Idx) :
    (dot_S128x4096_S4096x1024_S128x1024_1_0_0_1_n_n.rhsIdx i q 0).val = (q ⟨0, by decide⟩).val :=
  dot_S128x4096_S4096x1024_S128x1024_1_0_0_1_n_n.rhsIdx_val_of_single rfl i q
theorem mix_r1 (i : S128x1024.Idx) (q : dot_S128x4096_S4096x1024_S128x1024_1_0_0_1_n_n.contr.Idx) :
    (dot_S128x4096_S4096x1024_S128x1024_1_0_0_1_n_n.rhsIdx i q 1).val = (i 1).val := by
  unfold DotDims.rhsIdx
  rw [dif_neg (show ¬(1 : Fin S4096x1024.rank) ∈ dot_S128x4096_S4096x1024_S128x1024_1_0_0_1_n_n.rhsBatch by decide),
    dif_pos (show (1 : Fin S4096x1024.rank) ∈ dot_S128x4096_S4096x1024_S128x1024_1_0_0_1_n_n.rhsNonContracting by decide)]
  rfl

/-- The output layer's product: plain dimension numbers. -/
theorem out_l0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl
theorem out_l1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem out_r0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem out_r1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

end Records

/-! ### The softmax of a block of score rows, for any extents -/

section Softmax

/-- The maximum over the last axis of an `[A, B]` array, at `r`: the fold of `max` over row `r`. -/
theorem max_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0xFF800000#32 : BitVec 32) = FKind.maximumf.neutral .f32 hφ) (r : Fin A) :
    multiReduction .maximumf [(1 : Fin 2)] ⟨1, ![A]⟩ src 0xFF800000#32 h hφ hacc (ix1 r)
      = rowMax (rowOf src r) := by
  refine (Ideal.multiReduction_maximumf_single src _ h hφ hacc (ix1 r)).trans ?_
  refine congrArg (fun f => Finset.fold max (Ideal.ofBits .f32 0xFF800000#32) f (Finset.univ : Finset (Fin B)))
    (funext fun k => congrArg src ?_)
  funext c
  apply Fin.ext
  match c with
  | ⟨0, _⟩ => rfl
  | ⟨1, _⟩ => rfl

/-- A block less its row maxima (taken over the lanes, laid out as a column, repeated along the lanes),
    exponentiated, at `(p, j)`. -/
theorem exp_centred_apply {R N : ℕ} (s : FVec Ideal ⟨2, ![R, N]⟩ .f32)
    (hm : (⟨2, ![R, N]⟩ : Shape).Reduces [(1 : Fin 2)] ⟨1, ![R]⟩) (hφ : FKind.Formats .f32)
    (hacc : (0xFF800000#32 : BitVec 32) = FKind.maximumf.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) :
    exp (subf s (broadcastTo ⟨2, ![R, N]⟩
        (shapeCast ⟨2, ![R, 1]⟩ (multiReduction .maximumf [(1 : Fin 2)] ⟨1, ![R]⟩ s 0xFF800000#32 hm hφ hacc) hc) hb)) (ix2 p j)
      = Ideal.exp (rowOf s p j - rowMax (rowOf s p)) := by
  show Ideal.exp (s (ix2 p j) - broadcastTo ⟨2, ![R, N]⟩
        (shapeCast ⟨2, ![R, 1]⟩ (multiReduction .maximumf [(1 : Fin 2)] ⟨1, ![R]⟩ s 0xFF800000#32 hm hφ hacc) hc) hb (ix2 p j)) = _
  rw [Cert.LibLayout.broadcastTo_a1_ab_apply, Cert.LibLayout.shapeCast_a_a1_apply, max_last2_apply]
  rfl

/-- A block over its row sums (taken over the lanes, laid out as a column, repeated along the lanes), at `(p, j)`. -/
theorem normalise_block_apply {R N : ℕ} (e : FVec Ideal ⟨2, ![R, N]⟩ .f32)
    (hs : (⟨2, ![R, N]⟩ : Shape).Reduces [(1 : Fin 2)] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) :
    divf e (broadcastTo ⟨2, ![R, N]⟩
        (shapeCast ⟨2, ![R, 1]⟩ (multiReduction .add [(1 : Fin 2)] ⟨1, ![R]⟩ e 0x00000000#32 hs hφ hacc) hc) hb) (ix2 p j)
      = Ideal.div (e (ix2 p j)) (∑ k : Fin N, e (ix2 p k)) := by
  show Ideal.div (e (ix2 p j)) (broadcastTo ⟨2, ![R, N]⟩
        (shapeCast ⟨2, ![R, 1]⟩ (multiReduction .add [(1 : Fin 2)] ⟨1, ![R]⟩ e 0x00000000#32 hs hφ hacc) hc) hb (ix2 p j)) = _
  rw [Cert.LibLayout.broadcastTo_a1_ab_apply, Cert.LibLayout.shapeCast_a_a1_apply, Cert.LibVectorReads.sum_last2_apply]

/-- The softmax of every row of a block of scores, as the vector operations spell it, at `(p, j)`. -/
theorem softmax_block_apply {R N : ℕ} (s : FVec Ideal ⟨2, ![R, N]⟩ .f32)
    (hm : (⟨2, ![R, N]⟩ : Shape).Reduces [(1 : Fin 2)] ⟨1, ![R]⟩) (hφ : FKind.Formats .f32)
    (hacc : (0xFF800000#32 : BitVec 32) = FKind.maximumf.neutral .f32 hφ)
    (hc : (⟨1, ![R]⟩ : Shape).ShapeCasts ⟨2, ![R, 1]⟩) (hb : (⟨2, ![R, 1]⟩ : Shape).Broadcasts ⟨2, ![R, N]⟩)
    (hs : (⟨2, ![R, N]⟩ : Shape).Reduces [(1 : Fin 2)] ⟨1, ![R]⟩) (hφ' : FKind.Formats .f32)
    (hacc' : (0x00000000#32 : BitVec 32) = FKind.add.neutral .f32 hφ')
    (hc' : (⟨1, ![R]⟩ : Shape).ShapeCasts ⟨2, ![R, 1]⟩) (hb' : (⟨2, ![R, 1]⟩ : Shape).Broadcasts ⟨2, ![R, N]⟩)
    (p : Fin R) (j : Fin N) :
    divf (exp (subf s (broadcastTo ⟨2, ![R, N]⟩
          (shapeCast ⟨2, ![R, 1]⟩ (multiReduction .maximumf [(1 : Fin 2)] ⟨1, ![R]⟩ s 0xFF800000#32 hm hφ hacc) hc) hb)))
        (broadcastTo ⟨2, ![R, N]⟩
          (shapeCast ⟨2, ![R, 1]⟩ (multiReduction .add [(1 : Fin 2)] ⟨1, ![R]⟩
            (exp (subf s (broadcastTo ⟨2, ![R, N]⟩
              (shapeCast ⟨2, ![R, 1]⟩ (multiReduction .maximumf [(1 : Fin 2)] ⟨1, ![R]⟩ s 0xFF800000#32 hm hφ hacc) hc) hb)))
            0x00000000#32 hs hφ' hacc') hc') hb') (ix2 p j)
      = softmaxRow (rowOf s p) j := by
  refine (normalise_block_apply _ hs hφ' hacc' hc' hb' p j).trans ?_
  rw [exp_centred_apply s hm hφ hacc hc hb p j]
  exact congrArg (Ideal.div _) (Finset.sum_congr rfl fun k _ => exp_centred_apply s hm hφ hacc hc hb p k)

end Softmax

/-- The query projection's block at `(p, q)`: the affine map of row `p`. -/
theorem pay_lin0 (x0 : Vec Ideal S1024x1024 .f32) (x1 : Vec Ideal S1024x1024 .bf16) (x2 : Vec Ideal S1024 .f32)
    (p q : Fin 1024) : Gen.k0_pay1 (F := Ideal) x0 x1 x2 (ix2 p q) = affine (rowOf x0 p) x1 x2 q := by
  unfold Gen.k0_pay1
  exact Cert.LibBlockLayers.affine_block_apply dot_S1024x1024_S1024x1024_S1024x1024_1_0_0_1_n_n rfl rfl
    lin_l0 lin_l1 lin_r0 lin_r1 x0 _ x1 _ x2 _ _ p q

/-- The key projection's block at `(p, q)`. -/
theorem pay_lin1 (x0 : Vec Ideal S1024x1024 .f32) (x1 : Vec Ideal S1024x1024 .bf16) (x2 : Vec Ideal S1024 .f32)
    (p q : Fin 1024) : Gen.k1_pay1 (F := Ideal) x0 x1 x2 (ix2 p q) = affine (rowOf x0 p) x1 x2 q := by
  unfold Gen.k1_pay1
  exact Cert.LibBlockLayers.affine_block_apply dot_S1024x1024_S1024x1024_S1024x1024_1_0_0_1_n_n rfl rfl
    lin_l0 lin_l1 lin_r0 lin_r1 x0 _ x1 _ x2 _ _ p q

/-- The value projection's block at `(p, q)` (stored as bf16: the same number). -/
theorem pay_lin2 (x0 : Vec Ideal S1024x1024 .f32) (x1 : Vec Ideal S1024x1024 .bf16) (x2 : Vec Ideal S1024 .f32)
    (p q : Fin 1024) : Gen.k2_pay1 (F := Ideal) x0 x1 x2 (ix2 p q) = affine (rowOf x0 p) x1 x2 q := by
  unfold Gen.k2_pay1
  exact Cert.LibBlockLayers.affine_block_apply dot_S1024x1024_S1024x1024_S1024x1024_1_0_0_1_n_n rfl rfl
    lin_l0 lin_l1 lin_r0 lin_r1 x0 _ x1 _ x2 _ _ p q

/-- The attention weights of query row `p` of a block at key `j`. -/
theorem pay_weights (x0 : Vec Ideal S128x1024 .f32) (x1 : Vec Ideal S4096x1024 .f32) (p : Fin 128) (j : Fin 4096) :
    Gen.k3_pay1 (F := Ideal) x0 x1 (ix2 p j) = softmaxRow (scoreRow (rowOf x0 p) x1) j := by
  unfold Gen.k3_pay1
  refine (softmax_block_apply _ _ _ _ _ _ _ _ _ _ _ p j).trans ?_
  refine congrArg (fun r => softmaxRow r j) (funext fun k => ?_)
  refine (Cert.LibRowDot.matmul_rows_zero dot_S128x1024_S4096x1024_S128x4096_1_1_0_0_n_n rfl rfl
    sc_l0 sc_l1 sc_r0 sc_r1 (some .fp32) _ _ p k).trans ?_
  rw [shapeCast_self, shapeCast_self]
  rfl

/-- The attended and projected output of query row `p` of a block at column `e`. -/
theorem pay_attended (x0 : Vec Ideal S128x1024 .f32) (x1 : Vec Ideal S4096x1024 .f32) (x2 : Vec Ideal S4096x1024 .bf16)
    (x3 : Vec Ideal S1024x1024 .bf16) (x4 : Vec Ideal S1024 .f32) (p : Fin 128) (e : Fin 1024) :
    Gen.k3_pay2 (F := Ideal) x0 x1 x2 x3 x4 (ix2 p e)
      = affine (mixRow (softmaxRow (scoreRow (rowOf x0 p) x1)) x2) x3 x4 e := by
  unfold Gen.k3_pay2
  refine (Cert.LibBlockLayers.affine_block_apply dot_S128x1024_S1024x1024_S128x1024_1_0_0_1_n_n rfl rfl
    out_l0 out_l1 out_r0 out_r1 _ _ x3 _ x4 _ _ p e).trans ?_
  refine congrArg (fun r => affine r x3 x4 e) (funext fun d => ?_)
  refine (Cert.LibPlainDot.matmul_zero_plain dot_S128x4096_S4096x1024_S128x1024_1_0_0_1_n_n rfl rfl
    mix_l0 mix_l1 mix_r0 mix_r1 none _ _ p d).trans ?_
  refine Finset.sum_congr rfl fun j _ => ?_
  rw [shapeCast_self]
  exact congrArg (· * x2 (ix2 j d)) (pay_weights x0 x1 p j)

end Cert.KernelIdeal.Payloads

end
-- ==== Proof.ProjectionArrays.lean ====
/-
  The three projection kernels, from blocks to whole arrays.

  Each projection kernel walks four blocks of 1024 rows. At every block it reads the block's rows of the activations,
  the whole transposed weight matrix and the whole bias, and writes the affine map of every row into the same rows of
  its result. The blocks of rows tile the 4096 rows, so the result array ends holding the dense layer of the whole
  activations: row `r` of the result is the affine map of row `r` of the operand.
-/
import proofs.«156186_j63642825392306_2_alg».proof.Proof.Gen.KernelIdeal.Frame
import proofs.«156186_j63642825392306_2_alg».proof.Proof.KernelPayloads
import proofs.«156186_j63642825392306_2_alg».proof.Proof.AttentionSpec
import Idealize.ShloMosaic.Lib.Pipeline.Value
import Idealize.ShloMosaic.Lib.ValueIdx

set_option maxRecDepth 16384

noncomputable section

open scoped BigOperators

namespace Cert.KernelIdeal.ProjectionArrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.KernelIdeal.Payloads
open Cert.LibRowOps Cert.AttentionSpec

variable (V : (c : Dev nD) → (b : Ref sig .tc) → Buf (Elt Ideal) ((c : Thread nD τ).loc b))

/-- The zero offsets of a whole two-axis block, however they are spelt. -/
theorem zeros2 : (![0, 0] : Fin 2 → Nat) = fun _ => 0 := funext fun a => by fin_cases a <;> rfl
/-- The zero offset of a whole one-axis block. -/
theorem zeros1 : (![0] : Fin 1 → Nat) = fun _ => 0 := funext fun a => by fin_cases a <;> rfl

/-- One entry of a block of the dense layer against the whole-array dense layer: when the block's row `p` is row
    `i 0` of the operand, the block's weights and bias are the whole weights and bias, and the entry's column is
    `i 1`, the affine map of the block's row at `q` is the dense layer at `i`. -/
theorem affine_eq_lin (X : Mat 4096 1024) (W : Mat 1024 1024) (B : Vect 1024)
    (x0 : Mat 1024 1024) (x1 : Mat 1024 1024) (x2 : Vect 1024)
    (i : (⟨2, ![4096, 1024]⟩ : Shape).Idx) (p q : Fin 1024)
    (h0 : ∀ k : Fin 1024, x0 (ix2 p k) = X (ix2 (i 0) k)) (h1 : x1 = W) (h2 : x2 = B) (hq : i 1 = q) :
    affine (rowOf x0 p) x1 x2 q = lin X W B i := by
  subst h1 h2
  show affine (rowOf x0 p) x1 x2 q = affine (rowOf X (i 0)) x1 x2 (i 1)
  rw [hq]
  congr 1
  funext k
  exact h0 k

/-! ## The query projection -/

/-- The index maps, decided over the four grid points: the activations and the result move by blocks of rows with the
    point; the weights and the bias stay at their one block. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the activations' block at point `t` is the operand's row under the result's entry `(p, q)` of the same
    block: both blocks start at row `1024 t`. -/
theorem rows0 (c : Dev nD) (t : Fin cfg0.N) (p q k : Fin 1024) :
    iblk0 V c 0 t (ix2 p k)
      = V c (Pipeline.arrRef spec0 0) (ix2 ((((cfg0.win 3).blk t).view.emb (ix2 p q)) 0) k) := by
  obtain ⟨e0, e1, -, -, -, e5, -⟩ := index0 t
  show V c (Pipeline.arrRef spec0 0) (((cfg0.win 0).blk t).view.emb (ix2 p k)) = _
  refine congrArg _ ?_
  funext a; apply Fin.ext
  match a with
  | ⟨0, _⟩ => show win0_0.index t (0 : Fin 2) * 1024 + 1 * p.val = win0_3.index t (0 : Fin 2) * 1024 + 1 * p.val; omega
  | ⟨1, _⟩ => show win0_0.index t (1 : Fin 2) * 1024 + 1 * k.val = k.val; omega

/-- The weights' block at every point is the whole weight matrix. -/
theorem weights0 (c : Dev nD) (t : Fin cfg0.N) : iblk0 V c 1 t = V c (Pipeline.arrRef spec0 1) := by
  obtain ⟨-, -, e2, e3, -, -, -⟩ := index0 t
  funext y
  show V c (Pipeline.arrRef spec0 1) (((cfg0.win 1).blk t).view.emb y) = _
  refine congrArg _ ?_
  funext a; apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The bias' block at every point is the whole bias. -/
theorem bias0 (c : Dev nD) (t : Fin cfg0.N) : iblk0 V c 2 t = V c (Pipeline.arrRef spec0 2) := by
  obtain ⟨-, -, -, -, e4, -, -⟩ := index0 t
  funext y
  show V c (Pipeline.arrRef spec0 2) (((cfg0.win 2).blk t).view.emb y) = _
  refine congrArg _ ?_
  funext a; apply Fin.ext
  match a with
  | ⟨0, _⟩ => show win0_2.index t (0 : Fin 1) * 1024 + 1 * (y 0).val = (y 0).val; omega

/-- What point `t` writes back is block `t` of the dense layer of the arrays as the kernel finds them. -/
theorem flushed0 (c : Dev nD) (t : Fin cfg0.N) :
    (dat0 (F := Ideal) V c).flushed 3 t = ((cfg0.win 3).blk t).view.read (Elt Ideal)
      (lin (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero zeros2]
  simp only [View.ld_unit_zero (S := S1024x1024) zeros2, View.ld_unit_zero (S := S1024) zeros1]
  funext y
  obtain ⟨p, q, rfl⟩ : ∃ (p : Fin 1024) (q : Fin 1024), y = ix2 p q := ⟨y 0, y 1, eq_ix2 y⟩
  show k0_pay1 (F := Ideal) (iblk0 V c 0 t) (iblk0 V c 1 t) (iblk0 V c 2 t) (ix2 p q)
    = lin (V c (Pipeline.arrRef spec0 0)) (V c (Pipeline.arrRef spec0 1)) (V c (Pipeline.arrRef spec0 2))
        (((cfg0.win 3).blk t).view.emb (ix2 p q))
  rw [pay_lin0]
  refine affine_eq_lin _ _ _ _ _ _ _ p q (fun k => rows0 V c t p q k) (weights0 V c t) (bias0 V c t) ?_
  obtain ⟨-, -, -, -, -, -, e6⟩ := index0 t
  apply Fin.ext
  show win0_3.index t (1 : Fin 2) * 1024 + 1 * q.val = q.val
  omega

/-- An index of the result is in point `t`'s block iff each coordinate is in the block's range on its axis. -/
theorem mem_rows0 (t : Fin cfg0.N) (i : S4096x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v8).slice (win0_3.rect t)).set ↔ _
  rw [View.set_slice_whole, Rect.mem_set_unit]
  exact Iff.rfl

/-- Every entry of the result is written by some point: row `r` by point `r / 1024`. -/
theorem cover0 (i : S4096x1024.Idx) :
    ∃ t : Fin cfg0.N, (cfg0.win 3).flush t = true ∧ i ∈ ((cfg0.win 3).blk t).view.set := by
  have h0 : (i 0).val < 4096 := (i 0).isLt
  have h1 : (i 1).val < 1024 := (i 1).isLt
  have hN : (i 0).val / 1024 < cfg0.N := by rw [show cfg0.N = 4 from N_0]; omega
  obtain ⟨-, -, -, -, -, e5, e6⟩ := index0 ⟨(i 0).val / 1024, hN⟩
  have e5' : win0_3.index ⟨(i 0).val / 1024, hN⟩ (0 : Fin 2) = (i 0).val / 1024 := e5
  refine ⟨⟨(i 0).val / 1024, hN⟩, flush0_3 _, ?_⟩
  rw [mem_rows0]
  intro a
  match a with
  | ⟨0, _⟩ =>
    show win0_3.index ⟨(i 0).val / 1024, hN⟩ (0 : Fin 2) * 1024 ≤ (i 0).val
      ∧ (i 0).val < win0_3.index ⟨(i 0).val / 1024, hN⟩ (0 : Fin 2) * 1024 + 1024
    omega
  | ⟨1, _⟩ =>
    show win0_3.index ⟨(i 0).val / 1024, hN⟩ (1 : Fin 2) * 1024 ≤ (i 1).val
      ∧ (i 1).val < win0_3.index ⟨(i 0).val / 1024, hN⟩ (1 : Fin 2) * 1024 + 1024
    omega

/-- The query projection's result array after its kernel: the dense layer of the arrays as the kernel finds them. -/
theorem proj0_array (c : Dev nD) :
    (dat0 (F := Ideal) V c).arrAt 3 cfg0.N
      = lin (V c (Pipeline.arrRef spec0 0)) (V c (Pipeline.arrRef spec0 1)) (V c (Pipeline.arrRef spec0 2)) :=
  (dat0 (F := Ideal) V c).arrAt_eq_of_cover 3 _ (fun t _ => flushed0 V c t) cover0

/-! ## The key projection -/

/-- The index maps, decided over the four grid points: the activations and the result move by blocks of rows with the
    point; the weights and the bias stay at their one block. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of the activations' block at point `t` is the operand's row under the result's entry `(p, q)` of the same
    block: both blocks start at row `1024 t`. -/
theorem rows1 (c : Dev nD) (t : Fin cfg1.N) (p q k : Fin 1024) :
    iblk1 V c 0 t (ix2 p k)
      = V c (Pipeline.arrRef spec1 0) (ix2 ((((cfg1.win 3).blk t).view.emb (ix2 p q)) 0) k) := by
  obtain ⟨e0, e1, -, -, -, e5, -⟩ := index1 t
  show V c (Pipeline.arrRef spec1 0) (((cfg1.win 0).blk t).view.emb (ix2 p k)) = _
  refine congrArg _ ?_
  funext a; apply Fin.ext
  match a with
  | ⟨0, _⟩ => show win1_0.index t (0 : Fin 2) * 1024 + 1 * p.val = win1_3.index t (0 : Fin 2) * 1024 + 1 * p.val; omega
  | ⟨1, _⟩ => show win1_0.index t (1 : Fin 2) * 1024 + 1 * k.val = k.val; omega

/-- The weights' block at every point is the whole weight matrix. -/
theorem weights1 (c : Dev nD) (t : Fin cfg1.N) : iblk1 V c 1 t = V c (Pipeline.arrRef spec1 1) := by
  obtain ⟨-, -, e2, e3, -, -, -⟩ := index1 t
  funext y
  show V c (Pipeline.arrRef spec1 1) (((cfg1.win 1).blk t).view.emb y) = _
  refine congrArg _ ?_
  funext a; apply Fin.ext
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The bias' block at every point is the whole bias. -/
theorem bias1 (c : Dev nD) (t : Fin cfg1.N) : iblk1 V c 2 t = V c (Pipeline.arrRef spec1 2) := by
  obtain ⟨-, -, -, -, e4, -, -⟩ := index1 t
  funext y
  show V c (Pipeline.arrRef spec1 2) (((cfg1.win 2).blk t).view.emb y) = _
  refine congrArg _ ?_
  funext a; apply Fin.ext
  match a with
  | ⟨0, _⟩ => show win1_2.index t (0 : Fin 1) * 1024 + 1 * (y 0).val = (y 0).val; omega

/-- What point `t` writes back is block `t` of the dense layer of the arrays as the kernel finds them. -/
theorem flushed1 (c : Dev nD) (t : Fin cfg1.N) :
    (dat1 (F := Ideal) V c).flushed 3 t = ((cfg1.win 3).blk t).view.read (Elt Ideal)
      (lin (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zeros2]
  simp only [View.ld_unit_zero (S := S1024x1024) zeros2, View.ld_unit_zero (S := S1024) zeros1]
  funext y
  obtain ⟨p, q, rfl⟩ : ∃ (p : Fin 1024) (q : Fin 1024), y = ix2 p q := ⟨y 0, y 1, eq_ix2 y⟩
  show k1_pay1 (F := Ideal) (iblk1 V c 0 t) (iblk1 V c 1 t) (iblk1 V c 2 t) (ix2 p q)
    = lin (V c (Pipeline.arrRef spec1 0)) (V c (Pipeline.arrRef spec1 1)) (V c (Pipeline.arrRef spec1 2))
        (((cfg1.win 3).blk t).view.emb (ix2 p q))
  rw [pay_lin1]
  refine affine_eq_lin _ _ _ _ _ _ _ p q (fun k => rows1 V c t p q k) (weights1 V c t) (bias1 V c t) ?_
  obtain ⟨-, -, -, -, -, -, e6⟩ := index1 t
  apply Fin.ext
  show win1_3.index t (1 : Fin 2) * 1024 + 1 * q.val = q.val
  omega

/-- An index of the result is in point `t`'s block iff each coordinate is in the block's range on its axis. -/
theorem mem_rows1 (t : Fin cfg1.N) (i : S4096x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v9).slice (win1_3.rect t)).set ↔ _
  rw [View.set_slice_whole, Rect.mem_set_unit]
  exact Iff.rfl

/-- Every entry of the result is written by some point: row `r` by point `r / 1024`. -/
theorem cover1 (i : S4096x1024.Idx) :
    ∃ t : Fin cfg1.N, (cfg1.win 3).flush t = true ∧ i ∈ ((cfg1.win 3).blk t).view.set := by
  have h0 : (i 0).val < 4096 := (i 0).isLt
  have h1 : (i 1).val < 1024 := (i 1).isLt
  have hN : (i 0).val / 1024 < cfg1.N := by rw [show cfg1.N = 4 from N_1]; omega
  obtain ⟨-, -, -, -, -, e5, e6⟩ := index1 ⟨(i 0).val / 1024, hN⟩
  have e5' : win1_3.index ⟨(i 0).val / 1024, hN⟩ (0 : Fin 2) = (i 0).val / 1024 := e5
  refine ⟨⟨(i 0).val / 1024, hN⟩, flush1_3 _, ?_⟩
  rw [mem_rows1]
  intro a
  match a with
  | ⟨0, _⟩ =>
    show win1_3.index ⟨(i 0).val / 1024, hN⟩ (0 : Fin 2) * 1024 ≤ (i 0).val
      ∧ (i 0).val < win1_3.index ⟨(i 0).val / 1024, hN⟩ (0 : Fin 2) * 1024 + 1024
    omega
  | ⟨1, _⟩ =>
    show win1_3.index ⟨(i 0).val / 1024, hN⟩ (1 : Fin 2) * 1024 ≤ (i 1).val
      ∧ (i 1).val < win1_3.index ⟨(i 0).val / 1024, hN⟩ (1 : Fin 2) * 1024 + 1024
    omega

/-- The key projection's result array after its kernel. -/
theorem proj1_array (c : Dev nD) :
    (dat1 (F := Ideal) V c).arrAt 3 cfg1.N
      = lin (V c (Pipeline.arrRef spec1 0)) (V c (Pipeline.arrRef spec1 1)) (V c (Pipeline.arrRef spec1 2)) :=
  (dat1 (F := Ideal) V c).arrAt_eq_of_cover 3 _ (fun t _ => flushed1 V c t) cover1

/-! ## The value projection -/

/-- The index maps, decided over the four grid points: the activations and the result move by blocks of rows with the
    point; the weights and the bias stay at their one block. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Row `p` of the activations' block at point `t` is the operand's row under the result's entry `(p, q)` of the same
    block: both blocks start at row `1024 t`. -/
theorem rows2 (c : Dev nD) (t : Fin cfg2.N) (p q k : Fin 1024) :
    iblk2 V c 0 t (ix2 p k)
      = V c (Pipeline.arrRef spec2 0) (ix2 ((((cfg2.win 3).blk t).view.emb (ix2 p q)) 0) k) := by
  obtain ⟨e0, e1, -, -, -, e5, -⟩ := index2 t
  show V c (Pipeline.arrRef spec2 0) (((cfg2.win 0).blk t).view.emb (ix2 p k)) = _
  refine congrArg _ ?_
  funext a; apply Fin.ext
  match a with
  | ⟨0, _⟩ => show win2_0.index t (0 : Fin 2) * 1024 + 1 * p.val = win2_3.index t (0 : Fin 2) * 1024 + 1 * p.val; omega
  | ⟨1, _⟩ => show win2_0.index t (1 : Fin 2) * 1024 + 1 * k.val = k.val; omega

/-- The weights' block at every point is the whole weight matrix. -/
theorem weights2 (c : Dev nD) (t : Fin cfg2.N) : iblk2 V c 1 t = V c (Pipeline.arrRef spec2 1) := by
  obtain ⟨-, -, e2, e3, -, -, -⟩ := index2 t
  funext y
  show V c (Pipeline.arrRef spec2 1) (((cfg2.win 1).blk t).view.emb y) = _
  refine congrArg _ ?_
  funext a; apply Fin.ext
  match a with
  | ⟨0, _⟩ => show win2_1.index t (0 : Fin 2) * 1024 + 1 * (y 0).val = (y 0).val; omega
  | ⟨1, _⟩ => show win2_1.index t (1 : Fin 2) * 1024 + 1 * (y 1).val = (y 1).val; omega

/-- The bias' block at every point is the whole bias. -/
theorem bias2 (c : Dev nD) (t : Fin cfg2.N) : iblk2 V c 2 t = V c (Pipeline.arrRef spec2 2) := by
  obtain ⟨-, -, -, -, e4, -, -⟩ := index2 t
  funext y
  show V c (Pipeline.arrRef spec2 2) (((cfg2.win 2).blk t).view.emb y) = _
  refine congrArg _ ?_
  funext a; apply Fin.ext
  match a with
  | ⟨0, _⟩ => show win2_2.index t (0 : Fin 1) * 1024 + 1 * (y 0).val = (y 0).val; omega

/-- What point `t` writes back is block `t` of the dense layer of the arrays as the kernel finds them. -/
theorem flushed2 (c : Dev nD) (t : Fin cfg2.N) :
    (dat2 (F := Ideal) V c).flushed 3 t = ((cfg2.win 3).blk t).view.read (Elt Ideal)
      (lin (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero zeros2]
  simp only [View.ld_unit_zero (S := S1024x1024) zeros2, View.ld_unit_zero (S := S1024) zeros1]
  funext y
  obtain ⟨p, q, rfl⟩ : ∃ (p : Fin 1024) (q : Fin 1024), y = ix2 p q := ⟨y 0, y 1, eq_ix2 y⟩
  show k2_pay1 (F := Ideal) (iblk2 V c 0 t) (iblk2 V c 1 t) (iblk2 V c 2 t) (ix2 p q)
    = lin (V c (Pipeline.arrRef spec2 0)) (V c (Pipeline.arrRef spec2 1)) (V c (Pipeline.arrRef spec2 2))
        (((cfg2.win 3).blk t).view.emb (ix2 p q))
  rw [pay_lin2]
  refine affine_eq_lin _ _ _ _ _ _ _ p q (fun k => rows2 V c t p q k) (weights2 V c t) (bias2 V c t) ?_
  obtain ⟨-, -, -, -, -, -, e6⟩ := index2 t
  apply Fin.ext
  show win2_3.index t (1 : Fin 2) * 1024 + 1 * q.val = q.val
  omega

/-- An index of the result is in point `t`'s block iff each coordinate is in the block's range on its axis. -/
theorem mem_rows2 (t : Fin cfg2.N) (i : S4096x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v10).slice (win2_3.rect t)).set ↔ _
  rw [View.set_slice_whole, Rect.mem_set_unit]
  exact Iff.rfl

/-- Every entry of the result is written by some point: row `r` by point `r / 1024`. -/
theorem cover2 (i : S4096x1024.Idx) :
    ∃ t : Fin cfg2.N, (cfg2.win 3).flush t = true ∧ i ∈ ((cfg2.win 3).blk t).view.set := by
  have h0 : (i 0).val < 4096 := (i 0).isLt
  have h1 : (i 1).val < 1024 := (i 1).isLt
  have hN : (i 0).val / 1024 < cfg2.N := by rw [show cfg2.N = 4 from N_2]; omega
  obtain ⟨-, -, -, -, -, e5, e6⟩ := index2 ⟨(i 0).val / 1024, hN⟩
  have e5' : win2_3.index ⟨(i 0).val / 1024, hN⟩ (0 : Fin 2) = (i 0).val / 1024 := e5
  refine ⟨⟨(i 0).val / 1024, hN⟩, flush2_3 _, ?_⟩
  rw [mem_rows2]
  intro a
  match a with
  | ⟨0, _⟩ =>
    show win2_3.index ⟨(i 0).val / 1024, hN⟩ (0 : Fin 2) * 1024 ≤ (i 0).val
      ∧ (i 0).val < win2_3.index ⟨(i 0).val / 1024, hN⟩ (0 : Fin 2) * 1024 + 1024
    omega
  | ⟨1, _⟩ =>
    show win2_3.index ⟨(i 0).val / 1024, hN⟩ (1 : Fin 2) * 1024 ≤ (i 1).val
      ∧ (i 1).val < win2_3.index ⟨(i 0).val / 1024, hN⟩ (1 : Fin 2) * 1024 + 1024
    omega

/-- The value projection's result array after its kernel (stored as bf16: the same numbers). -/
theorem proj2_array (c : Dev nD) :
    (dat2 (F := Ideal) V c).arrAt 3 cfg2.N
      = lin (V c (Pipeline.arrRef spec2 0)) (V c (Pipeline.arrRef spec2 1)) (V c (Pipeline.arrRef spec2 2)) :=
  (dat2 (F := Ideal) V c).arrAt_eq_of_cover 3 _ (fun t _ => flushed2 V c t) cover2

end Cert.KernelIdeal.ProjectionArrays

end
-- ==== Proof.AttentionArrays.lean ====
/-
  The attention kernel's two result arrays, read whole.

  The kernel visits 32 blocks of 128 query rows. At each it holds the block of projected queries and the whole arrays of
  projected keys, projected values, transposed output weights and output bias, and it writes back the block's rows of the
  attention weights and of the attended, projected output. Each written entry depends on one query row and on the whole of
  the other arrays, so the block written at a point is the block of one function of the arrays as the kernel finds them:
  the attention weights, respectively the attended values through the output layer. The 32 blocks tile the rows, so each
  array ends holding that function.
-/
import proofs.«156186_j63642825392306_2_alg».proof.Proof.Gen.KernelIdeal.Frame
import proofs.«156186_j63642825392306_2_alg».proof.Proof.KernelPayloads
import proofs.«156186_j63642825392306_2_alg».proof.Proof.AttentionSpec
import Idealize.ShloMosaic.Lib.Pipeline.Value
import Idealize.ShloMosaic.Lib.ValueIdx

set_option maxRecDepth 16384

noncomputable section

namespace Cert.KernelIdeal.AttentionArrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.LibRowOps Cert.AttentionSpec

variable (V : (c : Dev nD) → (b : Ref sig .tc) → Buf (Elt Ideal) ((c : Thread nD τ).loc b))

/-! ## Where each window's block sits -/

theorem zero_offsets2 : (![0, 0] : Fin 2 → Nat) = fun _ => 0 := funext fun a => by fin_cases a <;> rfl
theorem zero_offsets1 : (![0] : Fin 1 → Nat) = fun _ => 0 := funext fun a => by fin_cases a; rfl

/-- The grid has 32 points. -/
theorem points_eq : cfg3.N = 32 := by decide

/-- The block indices, decided over the 32 points: the query block and both result blocks sit at the point's own row
    block and column block 0; the keys, values, output weights and bias are whole arrays, at block 0 on every axis. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Row `p` of the block at point `t`, as a row of the whole array. -/
def rowAt (t : Fin cfg3.N) (p : Fin 128) : Fin 4096 :=
  ⟨t.val * 128 + p.val, by have := t.isLt; have h := points_eq; omega⟩

/-! ## The input windows' blocks, read off the arrays -/

/-- The query block at a point holds rows `128 t … 128 t + 127` of the projected queries. -/
theorem queries_block_apply (c : Dev nD) (t : Fin cfg3.N) (p : Fin 128) (k : Fin 1024) :
    (iblk3 V c 0 t : Vec Ideal S128x1024 .f32) (ix2 p k)
      = (V c (Pipeline.arrRef spec3 0) : Mat 4096 1024) (ix2 (rowAt t p) k) := by
  obtain ⟨e0, e1, -⟩ := block_indices t
  show V c (Pipeline.arrRef spec3 0) (((cfg3.win 0).blk t).view.emb (ix2 p k)) = V c (Pipeline.arrRef spec3 0) _
  refine congrArg _ ?_
  funext a
  apply Fin.ext
  match a with
  | ⟨0, _⟩ => show win3_0.index t (0 : Fin 2) * 128 + 1 * p.val = t.val * 128 + p.val; omega
  | ⟨1, _⟩ => show win3_0.index t (1 : Fin 2) * 1024 + 1 * k.val = k.val; omega

/-- Hence row `p` of the query block is row `128 t + p` of the projected queries. -/
theorem queries_block_row (c : Dev nD) (t : Fin cfg3.N) (p : Fin 128) :
    rowOf (iblk3 V c 0 t : Vec Ideal S128x1024 .f32) p
      = rowOf (V c (Pipeline.arrRef spec3 0) : Mat 4096 1024) (rowAt t p) :=
  funext fun k => queries_block_apply V c t p k

/-- The key window's block is the whole array of projected keys. -/
theorem keys_block (c : Dev nD) (t : Fin cfg3.N) :
    (iblk3 V c 1 t : Vec Ideal S4096x1024 .f32) = (V c (Pipeline.arrRef spec3 1) : Mat 4096 1024) := by
  obtain ⟨-, -, e0, e1, -⟩ := block_indices t
  funext y
  show V c (Pipeline.arrRef spec3 1) (((cfg3.win 1).blk t).view.emb y) = V c (Pipeline.arrRef spec3 1) y
  refine congrArg _ ?_
  funext a
  apply Fin.ext
  match a with
  | ⟨0, _⟩ => show win3_1.index t (0 : Fin 2) * 4096 + 1 * (y 0).val = (y 0).val; omega
  | ⟨1, _⟩ => show win3_1.index t (1 : Fin 2) * 1024 + 1 * (y 1).val = (y 1).val; omega

/-- The value window's block is the whole array of projected values. -/
theorem values_block (c : Dev nD) (t : Fin cfg3.N) :
    (iblk3 V c 2 t : Vec Ideal S4096x1024 .bf16) = (V c (Pipeline.arrRef spec3 2) : Mat 4096 1024) := by
  obtain ⟨-, -, -, -, e0, e1, -⟩ := block_indices t
  funext y
  show V c (Pipeline.arrRef spec3 2) (((cfg3.win 2).blk t).view.emb y) = V c (Pipeline.arrRef spec3 2) y
  refine congrArg _ ?_
  funext a
  apply Fin.ext
  match a with
  | ⟨0, _⟩ => show win3_2.index t (0 : Fin 2) * 4096 + 1 * (y 0).val = (y 0).val; omega
  | ⟨1, _⟩ => show win3_2.index t (1 : Fin 2) * 1024 + 1 * (y 1).val = (y 1).val; omega

/-- The output-weight window's block is the whole transposed weight matrix. -/
theorem out_weights_block (c : Dev nD) (t : Fin cfg3.N) :
    (iblk3 V c 3 t : Vec Ideal S1024x1024 .bf16) = (V c (Pipeline.arrRef spec3 3) : Mat 1024 1024) := by
  obtain ⟨-, -, -, -, -, -, e0, e1, -⟩ := block_indices t
  funext y
  show V c (Pipeline.arrRef spec3 3) (((cfg3.win 3).blk t).view.emb y) = V c (Pipeline.arrRef spec3 3) y
  refine congrArg _ ?_
  funext a
  apply Fin.ext
  match a with
  | ⟨0, _⟩ => show win3_3.index t (0 : Fin 2) * 1024 + 1 * (y 0).val = (y 0).val; omega
  | ⟨1, _⟩ => show win3_3.index t (1 : Fin 2) * 1024 + 1 * (y 1).val = (y 1).val; omega

/-- The bias window's block is the whole output bias. -/
theorem out_bias_block (c : Dev nD) (t : Fin cfg3.N) :
    (iblk3 V c 4 t : Vec Ideal S1024 .f32) = (V c (Pipeline.arrRef spec3 4) : Vect 1024) := by
  obtain ⟨-, -, -, -, -, -, -, -, e0, -⟩ := block_indices t
  funext y
  show V c (Pipeline.arrRef spec3 4) (((cfg3.win 4).blk t).view.emb y) = V c (Pipeline.arrRef spec3 4) y
  refine congrArg _ ?_
  funext a
  apply Fin.ext
  match a with
  | ⟨0, _⟩ => show win3_4.index t (0 : Fin 1) * 1024 + 1 * (y 0).val = (y 0).val; omega

/-! ## The attention weights -/

/-- What a point writes back to the attention weights is its block of the weights of the whole arrays. -/
theorem weights_flushed (c : Dev nD) (t : Fin cfg3.N) :
    (dat3 (F := Ideal) V c).flushed 6 t
      = ((cfg3.win 6).blk t).view.read (Elt Ideal)
          (weights (V c (Pipeline.arrRef spec3 0) : Mat 4096 1024) (V c (Pipeline.arrRef spec3 1) : Mat 4096 1024)) := by
  show (cfg3.win 6).cut (grid3.coords t) ((dat3 (F := Ideal) V c).after 6 t) = _
  rw [after3_6]
  unfold out3_6
  rw [View.canon_unit_zero zero_offsets2]
  simp only [View.ld_unit_zero (S := S128x1024) zero_offsets2, View.ld_unit_zero (S := S4096x1024) zero_offsets2]
  obtain ⟨-, -, -, -, -, -, -, -, -, -, -, e0, e1⟩ := block_indices t
  funext y
  obtain ⟨p, j, rfl⟩ : ∃ (p : Fin 128) (j : Fin 4096), y = ix2 p j := ⟨y 0, y 1, eq_ix2 y⟩
  show k3_pay1 (iblk3 V c 0 t) (iblk3 V c 1 t) (ix2 p j)
    = weights (V c (Pipeline.arrRef spec3 0) : Mat 4096 1024) (V c (Pipeline.arrRef spec3 1) : Mat 4096 1024)
        (((cfg3.win 6).blk t).view.emb (ix2 p j))
  have hemb : ((cfg3.win 6).blk t).view.emb (ix2 p j) = (ix2 (rowAt t p) j : (⟨2, ![4096, 4096]⟩ : Shape).Idx) := by
    funext a
    apply Fin.ext
    match a with
    | ⟨0, _⟩ => show win3_6.index t (0 : Fin 2) * 128 + 1 * p.val = t.val * 128 + p.val; omega
    | ⟨1, _⟩ => show win3_6.index t (1 : Fin 2) * 4096 + 1 * j.val = j.val; omega
  rw [hemb, weights_ix2]
  refine (Payloads.pay_weights _ _ p j).trans ?_
  rw [queries_block_row, keys_block]

/-- An index of the attention weights is in a point's block iff each coordinate is in the block's range on its axis. -/
theorem weights_block_mem (t : Fin cfg3.N) (i : S4096x4096.Idx) :
    i ∈ ((cfg3.win 6).blk t).view.set
      ↔ ∀ a : Fin 2, win3_6.index t a * S128x4096.size a ≤ (i a).val
          ∧ (i a).val < win3_6.index t a * S128x4096.size a + S128x4096.size a := by
  show i ∈ ((View.whole main_v11_1).slice (win3_6.rect t)).set ↔ _
  rw [View.set_slice_whole, Rect.mem_set_unit]
  exact Iff.rfl

/-- Every entry of the attention weights is written: row `r` by the point `r / 128`. -/
theorem weights_cover (i : S4096x4096.Idx) :
    ∃ t : Fin cfg3.N, (cfg3.win 6).flush t = true ∧ i ∈ ((cfg3.win 6).blk t).view.set := by
  have hi0 : (i 0).val < 4096 := (i 0).isLt
  have hi1 : (i 1).val < 4096 := (i 1).isLt
  have hN := points_eq
  obtain ⟨t, ht⟩ : ∃ t : Fin cfg3.N, t.val = (i 0).val / 128 := ⟨⟨(i 0).val / 128, by omega⟩, rfl⟩
  obtain ⟨-, -, -, -, -, -, -, -, -, -, -, e0, e1⟩ := block_indices t
  refine ⟨t, flush3_6 t, ?_⟩
  rw [weights_block_mem]
  intro a
  match a with
  | ⟨0, _⟩ =>
    show win3_6.index t (0 : Fin 2) * 128 ≤ (i 0).val ∧ (i 0).val < win3_6.index t (0 : Fin 2) * 128 + 128
    omega
  | ⟨1, _⟩ =>
    show win3_6.index t (1 : Fin 2) * 4096 ≤ (i 1).val ∧ (i 1).val < win3_6.index t (1 : Fin 2) * 4096 + 4096
    omega

/-- The attention-weights array after the kernel: the softmax of every query row's scores against all key rows. -/
theorem weights_array (c : Dev nD) :
    (dat3 (F := Ideal) V c).arrAt 6 cfg3.N
      = weights (V c (Pipeline.arrRef spec3 0)) (V c (Pipeline.arrRef spec3 1)) :=
  (dat3 (F := Ideal) V c).arrAt_eq_of_cover 6
    (weights (V c (Pipeline.arrRef spec3 0) : Mat 4096 1024) (V c (Pipeline.arrRef spec3 1) : Mat 4096 1024))
    (fun t _ => weights_flushed V c t) weights_cover

/-! ## The attended values through the output layer -/

/-- What a point writes back to the result is its block of the attended, projected values of the whole arrays. -/
theorem attended_flushed (c : Dev nD) (t : Fin cfg3.N) :
    (dat3 (F := Ideal) V c).flushed 5 t
      = ((cfg3.win 5).blk t).view.read (Elt Ideal)
          (attended (V c (Pipeline.arrRef spec3 0) : Mat 4096 1024) (V c (Pipeline.arrRef spec3 1) : Mat 4096 1024)
            (V c (Pipeline.arrRef spec3 2) : Mat 4096 1024) (V c (Pipeline.arrRef spec3 3) : Mat 1024 1024)
            (V c (Pipeline.arrRef spec3 4) : Vect 1024)) := by
  show (cfg3.win 5).cut (grid3.coords t) ((dat3 (F := Ideal) V c).after 5 t) = _
  rw [after3_5]
  unfold out3_5
  rw [View.canon_unit_zero zero_offsets2]
  simp only [View.ld_unit_zero (S := S128x1024) zero_offsets2, View.ld_unit_zero (S := S4096x1024) zero_offsets2,
    View.ld_unit_zero (S := S1024x1024) zero_offsets2, View.ld_unit_zero (S := S1024) zero_offsets1]
  obtain ⟨-, -, -, -, -, -, -, -, -, e0, e1, -⟩ := block_indices t
  funext y
  obtain ⟨p, e, rfl⟩ : ∃ (p : Fin 128) (e : Fin 1024), y = ix2 p e := ⟨y 0, y 1, eq_ix2 y⟩
  show k3_pay2 (iblk3 V c 0 t) (iblk3 V c 1 t) (iblk3 V c 2 t) (iblk3 V c 3 t) (iblk3 V c 4 t) (ix2 p e)
    = attended (V c (Pipeline.arrRef spec3 0) : Mat 4096 1024) (V c (Pipeline.arrRef spec3 1) : Mat 4096 1024)
        (V c (Pipeline.arrRef spec3 2) : Mat 4096 1024) (V c (Pipeline.arrRef spec3 3) : Mat 1024 1024)
        (V c (Pipeline.arrRef spec3 4) : Vect 1024) (((cfg3.win 5).blk t).view.emb (ix2 p e))
  have hemb : ((cfg3.win 5).blk t).view.emb (ix2 p e) = (ix2 (rowAt t p) e : (⟨2, ![4096, 1024]⟩ : Shape).Idx) := by
    funext a
    apply Fin.ext
    match a with
    | ⟨0, _⟩ => show win3_5.index t (0 : Fin 2) * 128 + 1 * p.val = t.val * 128 + p.val; omega
    | ⟨1, _⟩ => show win3_5.index t (1 : Fin 2) * 1024 + 1 * e.val = e.val; omega
  rw [hemb, attended_ix2]
  refine (Payloads.pay_attended _ _ _ _ _ p e).trans ?_
  rw [queries_block_row, keys_block, values_block, out_weights_block, out_bias_block]

/-- An index of the result is in a point's block iff each coordinate is in the block's range on its axis. -/
theorem attended_block_mem (t : Fin cfg3.N) (i : S4096x1024.Idx) :
    i ∈ ((cfg3.win 5).blk t).view.set
      ↔ ∀ a : Fin 2, win3_5.index t a * S128x1024.size a ≤ (i a).val
          ∧ (i a).val < win3_5.index t a * S128x1024.size a + S128x1024.size a := by
  show i ∈ ((View.whole main_v11_0).slice (win3_5.rect t)).set ↔ _
  rw [View.set_slice_whole, Rect.mem_set_unit]
  exact Iff.rfl

/-- Every entry of the result is written: row `r` by the point `r / 128`. -/
theorem attended_cover (i : S4096x1024.Idx) :
    ∃ t : Fin cfg3.N, (cfg3.win 5).flush t = true ∧ i ∈ ((cfg3.win 5).blk t).view.set := by
  have hi0 : (i 0).val < 4096 := (i 0).isLt
  have hi1 : (i 1).val < 1024 := (i 1).isLt
  have hN := points_eq
  obtain ⟨t, ht⟩ : ∃ t : Fin cfg3.N, t.val = (i 0).val / 128 := ⟨⟨(i 0).val / 128, by omega⟩, rfl⟩
  obtain ⟨-, -, -, -, -, -, -, -, -, e0, e1, -⟩ := block_indices t
  refine ⟨t, flush3_5 t, ?_⟩
  rw [attended_block_mem]
  intro a
  match a with
  | ⟨0, _⟩ =>
    show win3_5.index t (0 : Fin 2) * 128 ≤ (i 0).val ∧ (i 0).val < win3_5.index t (0 : Fin 2) * 128 + 128
    omega
  | ⟨1, _⟩ =>
    show win3_5.index t (1 : Fin 2) * 1024 ≤ (i 1).val ∧ (i 1).val < win3_5.index t (1 : Fin 2) * 1024 + 1024
    omega

/-- The result array after the kernel: every query row's attention-weighted mixture of the value rows, through the
    output layer. -/
theorem attended_array (c : Dev nD) :
    (dat3 (F := Ideal) V c).arrAt 5 cfg3.N
      = attended (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5
    (attended (V c (Pipeline.arrRef spec3 0) : Mat 4096 1024) (V c (Pipeline.arrRef spec3 1) : Mat 4096 1024)
      (V c (Pipeline.arrRef spec3 2) : Mat 4096 1024) (V c (Pipeline.arrRef spec3 3) : Mat 1024 1024)
      (V c (Pipeline.arrRef spec3 4) : Vect 1024))
    (fun t _ => attended_flushed V c t) attended_cover

end Cert.KernelIdeal.AttentionArrays

end
-- ==== Proof.LibPlainHostDot.lean ====
/-
  The host's matrix product with plain dimension numbers, read at an entry in exact arithmetic.

  A `stablehlo.dot_general` of a rows-by-`K` matrix with a `K`-by-columns matrix (one contracted axis, nothing
  batched) is, at the entry `(p, c)`, the sum over the contracted coordinate `a` of the left factor at `(p, a)`
  times the right factor at `(a, c)`. On the extended reals this is a plain finite sum: no accumulator is added
  and nothing is cancelled, so no finiteness of the entries is needed.
-/
import Idealize.ShloMosaic.PureOps.Ideal.Laws
import Idealize.ShloMosaic.Lib.ValueIdx

noncomputable section

open scoped BigOperators

namespace Cert.LibPlainHostDot

open Idealize.ShloMosaic Idealize.ShloMosaic.ValueIdx

/-- A plain `R × K` by `K × C` host product read at `(p, c)` in exact arithmetic: `∑ a, l (p, a) * r (a, c)`.
    The hypotheses `hl0 … hr1` say the dimension numbers are the plain ones: the left factor's index takes its row
    from the output index and its column from the contraction index, the right factor's its row from the
    contraction index and its column from the output index. -/
theorem hostDot_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    Host.dotGeneral D prec l r (ix2 p c) = ∑ a : Fin K, l (ix2 p a) * r (ix2 a c) := by
  show FloatOps.dotGeneral D prec .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainHostDot

end
-- ==== Proof.LibRowBroadcast.lean ====
/-
  A vector laid out as one row and repeated over many rows, read at an entry.

  A bias vector `b` of length `n` is added to an `[a, n]` array through two `broadcast_in_dim`s: `b` to `[1, n]` along axis 1,
  then that row to `[a, n]` along both axes. The result at `(p, q)` is `b q`, whatever the row `p`.
-/
import Idealize.ShloMosaic.Lib.Pipeline.Value
import Idealize.ShloMosaic.Lib.ValueIdx

noncomputable section

namespace Cert.LibRowBroadcast

open Idealize.ShloMosaic Idealize.ShloMosaic.ValueIdx

/-- A length-`n` vector broadcast to `[1, n]` along axis 1 reads, at `(u, q)`, the vector at `q`. -/
theorem vector_as_row_apply {α : Type} {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply ![1] h x (ix2 u q) (ix1 q) fun a => ?_
  match a with
  | ⟨0, _⟩ =>
    show q.val = if n = 1 then 0 else q.val
    split
    · have := q.isLt; omega
    · rfl

/-- A `[1, n]` row broadcast to `[a, n]` along both axes reads, at `(p, q)`, the row at `q`. -/
theorem row_over_rows_apply {α : Type} {a n : ℕ} (x : (⟨2, ![1, n]⟩ : Shape).Idx → α)
    (h : (⟨2, ![1, n]⟩ : Shape).BroadcastsInDim ⟨2, ![a, n]⟩ (![0, 1] : Fin 2 → Fin 2)) (p : Fin a) (q : Fin n) :
    broadcastInDim ⟨2, ![a, n]⟩ ![0, 1] h x (ix2 p q) = x (ix2 (0 : Fin 1) q) := by
  refine broadcastInDim_apply ![0, 1] h x (ix2 p q) (ix2 (0 : Fin 1) q) fun ax => ?_
  match ax with
  | ⟨0, _⟩ => show 0 = if (1 : ℕ) = 1 then 0 else p.val; rw [if_pos rfl]
  | ⟨1, _⟩ =>
    show q.val = if n = 1 then 0 else q.val
    split
    · have := q.isLt; omega
    · rfl

/-- The two together: a vector added as a bias to every row reads, at `(p, q)`, the vector at `q`. -/
theorem vector_over_rows_apply {α : Type} {a n : ℕ} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (p : Fin a) (q : Fin n) :
    broadcastInDim ⟨2, ![a, n]⟩ ![0, 1] h2 (broadcastInDim ⟨2, ![1, n]⟩ ![1] h1 x) (ix2 p q) = x (ix1 q) := by
  rw [row_over_rows_apply, vector_as_row_apply]

end Cert.LibRowBroadcast

end
-- ==== Proof.LibBroadcasts.lean ====
/-
  Three broadcast_in_dim forms read at an index, for any extents: a scalar broadcast to any shape reads the scalar; a
  vector of a values laid out as a column [a, 1] (dims [0]) reads the vector at the row; a column [a, 1] repeated along
  a new last axis to [a, b] (dims [0, 1]) reads the column at the row.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A scalar broadcast to any shape reads, at every index, the scalar. -/
theorem scalar_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 (fun a => a.elim0)

/-- An [a] vector laid out as the column [a, 1] reads, at (p, z), the vector at p. -/
theorem vector_as_column_apply {a : ℕ} (x : (⟨1, ![a]⟩ : Shape).Idx → α)
    (h : (⟨1, ![a]⟩ : Shape).BroadcastsInDim ⟨2, ![a, 1]⟩ (![0] : Fin 1 → Fin 2)) (p : Fin a) (z : Fin 1) :
    broadcastInDim ⟨2, ![a, 1]⟩ ![0] h x (ix2 p z) = x (ix1 p) := by
  refine broadcastInDim_apply ![0] h x (ix2 p z) (ix1 p) fun ax => ?_
  match ax with
  | ⟨0, _⟩ =>
    show p.val = if a = 1 then 0 else p.val
    split
    · have := p.isLt; omega
    · rfl

/-- A column [a, 1] repeated along a new last axis to [a, b] reads, at (p, q), the column at row p. -/
theorem column_over_columns_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => show 0 = if (1 : ℕ) = 1 then 0 else q.val; rw [if_pos rfl]

end Cert.LibBroadcasts

end
-- ==== Proof.LibHostLayers.lean ====
/-
  The layers of a small dense network as the host's array operations apply them to a whole array of rows, read at an
  entry in exact arithmetic, for any extents.

  The statements mirror the ones for a kernel's block: each group of host operations, read at the entry `(r, q)`,
  is a row operation (`Cert.LibRowOps`) of row `r` of the operand alone. The host spells a bias as a vector laid out
  as one row and then repeated over the rows, a per-row scalar as a vector laid out as a column and then repeated along
  the columns, a constant as a rank-0 array repeated everywhere, and a row sum as a reduction starting from a rank-0
  zero; in exact arithmetic that zero is the number zero and drops out of the sum.
-/
import proofs.«156186_j63642825392306_2_alg».proof.Proof.LibRowOps
import proofs.«156186_j63642825392306_2_alg».proof.Proof.LibPlainHostDot
import proofs.«156186_j63642825392306_2_alg».proof.Proof.LibRowBroadcast
import proofs.«156186_j63642825392306_2_alg».proof.Proof.LibBroadcasts

noncomputable section

open scoped BigOperators

namespace Cert.LibHostLayers

open Idealize.ShloMosaic Idealize.ShloMosaic.ValueIdx Cert.LibRowOps

/-- The host's plain product plus a bias vector repeated over the rows, at `(r, q)`: the affine map of row `r`. -/
theorem affine_host_apply {R K N : ℕ}
    (D : DotDims ⟨2, ![R, K]⟩ ⟨2, ![K, N]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (q : Fin N) :
    addf (Host.dotGeneral D none x w)
        (broadcastInDim ⟨2, ![R, N]⟩ ![0, 1] h2 (broadcastInDim ⟨2, ![1, N]⟩ ![1] h1 b)) (ix2 r q)
      = affine (rowOf x r) w b q := by
  show Host.dotGeneral D none x w (ix2 r q)
      + broadcastInDim ⟨2, ![R, N]⟩ ![0, 1] h2 (broadcastInDim ⟨2, ![1, N]⟩ ![1] h1 b) (ix2 r q) = _
  rw [Cert.LibPlainHostDot.hostDot_plain D hr hs hl0 hl1 hr0 hr1, Cert.LibRowBroadcast.vector_over_rows_apply]
  rfl

/-- The rectifier against a rank-0 float zero repeated everywhere, at any index. -/
theorem relu_host_apply {s : Shape} (v : FVec Ideal s .f32)
    (h : (⟨0, ![]⟩ : Shape).BroadcastsInDim s (![] : Fin 0 → Fin s.rank)) (i : s.Idx) :
    maximumf v (broadcastInDim s ![] h (constant (F := Ideal) ⟨0, ![]⟩ .f32 0x00000000#32)) i
      = max (v i) (Ideal.ofBits .f32 0x00000000#32) := by
  show max (v i) (broadcastInDim s ![] h (constant (F := Ideal) ⟨0, ![]⟩ .f32 0x00000000#32) i) = _
  rw [Cert.LibBroadcasts.scalar_apply]
  rfl

/-- The host's sum over the last axis from a rank-0 zero, at `r`: the plain sum of row `r`. -/
theorem row_sum_host_apply {R N : ℕ} (v : FVec Ideal ⟨2, ![R, N]⟩ .f32)
    (hred : (⟨2, ![R, N]⟩ : Shape).ReducesTo [(1 : Fin 2)] ⟨1, ![R]⟩) (hu : 0 < (⟨0, ![]⟩ : Shape).numel)
    (hR : (⟨2, ![R, N]⟩ : Shape).Reduces [(1 : Fin 2)] ⟨1, ![R]⟩) (r : Fin R) :
    Host.reduceAdd v (constant (F := Ideal) ⟨0, ![]⟩ .f32 0x00000000#32) hred hu (ix1 r) = ∑ k : Fin N, v (ix2 r k) := by
  show Ideal.hostReduceAdd hred v (Ideal.ofBits .f32 0x00000000#32) (ix1 r) = _
  rw [Ideal.hostReduceAdd_single hred hR, Ideal.ofBits_zero_f32, zero_add]
  refine Finset.sum_congr rfl fun k _ => congrArg v ?_
  funext c
  apply Fin.ext
  match c with
  | ⟨0, _⟩ => rfl
  | ⟨1, _⟩ => rfl

/-- The row sum laid out as a column and divided by a rank-0 constant repeated over the column, at `(r, z)`: the mean
    of row `r`. -/
theorem mean_host_apply {R N : ℕ} (v : FVec Ideal ⟨2, ![R, N]⟩ .f32)
    (hred : (⟨2, ![R, N]⟩ : Shape).ReducesTo [(1 : Fin 2)] ⟨1, ![R]⟩) (hu : 0 < (⟨0, ![]⟩ : Shape).numel)
    (hR : (⟨2, ![R, N]⟩ : Shape).Reduces [(1 : Fin 2)] ⟨1, ![R]⟩)
    (h0 : (⟨1, ![R]⟩ : Shape).BroadcastsInDim ⟨2, ![R, 1]⟩ (![0] : Fin 1 → Fin 2))
    (hd : (⟨0, ![]⟩ : Shape).BroadcastsInDim ⟨2, ![R, 1]⟩ (![] : Fin 0 → Fin 2)) (d : BitVec 32)
    (r : Fin R) (z : Fin 1) :
    Host.divf (broadcastInDim ⟨2, ![R, 1]⟩ ![0] h0
          (Host.reduceAdd v (constant (F := Ideal) ⟨0, ![]⟩ .f32 0x00000000#32) hred hu))
        (broadcastInDim ⟨2, ![R, 1]⟩ ![] hd (constant (F := Ideal) ⟨0, ![]⟩ .f32 d)) (ix2 r z)
      = mean (Ideal.ofBits .f32 d) (rowOf v r) := by
  show Ideal.div (broadcastInDim ⟨2, ![R, 1]⟩ ![0] h0
          (Host.reduceAdd v (constant (F := Ideal) ⟨0, ![]⟩ .f32 0x00000000#32) hred hu) (ix2 r z))
        (broadcastInDim ⟨2, ![R, 1]⟩ ![] hd (constant (F := Ideal) ⟨0, ![]⟩ .f32 d) (ix2 r z)) = _
  rw [Cert.LibBroadcasts.vector_as_column_apply, Cert.LibBroadcasts.scalar_apply, row_sum_host_apply v hred hu hR]
  rfl

/-- An array less a column repeated along the columns, at `(r, q)`. -/
theorem sub_column_host_apply {R N : ℕ} (v : FVec Ideal ⟨2, ![R, N]⟩ .f32) (col : FVec Ideal ⟨2, ![R, 1]⟩ .f32)
    (h : (⟨2, ![R, 1]⟩ : Shape).BroadcastsInDim ⟨2, ![R, N]⟩ (![0, 1] : Fin 2 → Fin 2)) (r : Fin R) (q : Fin N) :
    subf v (broadcastInDim ⟨2, ![R, N]⟩ ![0, 1] h col) (ix2 r q) = v (ix2 r q) - col (ix2 r (0 : Fin 1)) := by
  show v (ix2 r q) - broadcastInDim ⟨2, ![R, N]⟩ ![0, 1] h col (ix2 r q) = _
  rw [Cert.LibBroadcasts.column_over_columns_apply]

/-- A centred array `c` times the host's reciprocal root of a column `v` plus a rank-0 constant, times a gain vector and
    plus a shift vector, both repeated over the rows, at `(r, q)`. -/
theorem rescale_host_apply {R N : ℕ} (c : FVec Ideal ⟨2, ![R, N]⟩ .f32) (v : FVec Ideal ⟨2, ![R, 1]⟩ .f32)
    (ε : BitVec 32) (g b : FVec Ideal ⟨1, ![N]⟩ .f32)
    (hε : (⟨0, ![]⟩ : Shape).BroadcastsInDim ⟨2, ![R, 1]⟩ (![] : Fin 0 → Fin 2))
    (hv : (⟨2, ![R, 1]⟩ : Shape).BroadcastsInDim ⟨2, ![R, N]⟩ (![0, 1] : Fin 2 → Fin 2))
    (hg1 : (⟨1, ![N]⟩ : Shape).BroadcastsInDim ⟨2, ![1, N]⟩ (![1] : Fin 1 → Fin 2))
    (hg2 : (⟨2, ![1, N]⟩ : Shape).BroadcastsInDim ⟨2, ![R, N]⟩ (![0, 1] : Fin 2 → Fin 2))
    (hb1 : (⟨1, ![N]⟩ : Shape).BroadcastsInDim ⟨2, ![1, N]⟩ (![1] : Fin 1 → Fin 2))
    (hb2 : (⟨2, ![1, N]⟩ : Shape).BroadcastsInDim ⟨2, ![R, N]⟩ (![0, 1] : Fin 2 → Fin 2))
    (r : Fin R) (q : Fin N) :
    addf (mulf (mulf c (broadcastInDim ⟨2, ![R, N]⟩ ![0, 1] hv
            (Host.rsqrt (addf v (broadcastInDim ⟨2, ![R, 1]⟩ ![] hε (constant (F := Ideal) ⟨0, ![]⟩ .f32 ε))))))
          (broadcastInDim ⟨2, ![R, N]⟩ ![0, 1] hg2 (broadcastInDim ⟨2, ![1, N]⟩ ![1] hg1 g)))
        (broadcastInDim ⟨2, ![R, N]⟩ ![0, 1] hb2 (broadcastInDim ⟨2, ![1, N]⟩ ![1] hb1 b)) (ix2 r q)
      = rescale (Ideal.ofBits .f32 ε) (rowOf c r) (v (ix2 r (0 : Fin 1))) g b q := by
  show c (ix2 r q) * broadcastInDim ⟨2, ![R, N]⟩ ![0, 1] hv
            (Host.rsqrt (addf v (broadcastInDim ⟨2, ![R, 1]⟩ ![] hε (constant (F := Ideal) ⟨0, ![]⟩ .f32 ε)))) (ix2 r q)
        * broadcastInDim ⟨2, ![R, N]⟩ ![0, 1] hg2 (broadcastInDim ⟨2, ![1, N]⟩ ![1] hg1 g) (ix2 r q)
      + broadcastInDim ⟨2, ![R, N]⟩ ![0, 1] hb2 (broadcastInDim ⟨2, ![1, N]⟩ ![1] hb1 b) (ix2 r q) = _
  rw [Cert.LibBroadcasts.column_over_columns_apply, Cert.LibRowBroadcast.vector_over_rows_apply,
    Cert.LibRowBroadcast.vector_over_rows_apply]
  show c (ix2 r q) * Ideal.rsqrt (v (ix2 r (0 : Fin 1))
        + broadcastInDim ⟨2, ![R, 1]⟩ ![] hε (constant (F := Ideal) ⟨0, ![]⟩ .f32 ε) (ix2 r (0 : Fin 1)))
        * g (ix1 q) + b (ix1 q) = _
  rw [Cert.LibBroadcasts.scalar_apply]
  rfl

/-- A dense layer followed by the rectifier, at `(r, q)`. -/
theorem relu_affine_host_apply {R K N : ℕ}
    (D : DotDims ⟨2, ![R, K]⟩ ⟨2, ![K, N]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) (r : Fin R) (q : Fin N) :
    maximumf (addf (Host.dotGeneral D none x w)
          (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32)) (ix2 r q)
      = relu (affine (rowOf x r) w b) q :=
  (relu_host_apply _ h0 _).trans
    (congrArg (max · (Ideal.ofBits .f32 0x00000000#32)) (affine_host_apply D hr hs hl0 hl1 hr0 hr1 x w b h1 h2 r q))

end Cert.LibHostLayers

end
-- ==== Proof.ReferenceValue.lean ====
/-
  The plain-array program for un-scaled single-head attention, read entry by entry in exact arithmetic.

  Each stage of the program is an array operation applied to whole arrays. Read at an entry, the three input layers
  are the affine map of one row with the transposed weight matrix; the scores of query row r against key row j are
  the sum over the features of the products; the row maximum is the fold of max from minus infinity (taking the
  maximum with minus infinity once more changes nothing); the weights are the exponentials of the scores less that
  maximum over their row sum (the sum starts from the float zero, which is the number zero); the attended values are
  the weights applied to the value rows; and the output layer is again an affine map of one row. Put together these
  are the two results of the row-by-row statement of attention. No entry needs to be finite.
-/
import proofs.«156186_j63642825392306_2_alg».proof.Proof.Gen.ReferenceIdeal.Read
import proofs.«156186_j63642825392306_2_alg».proof.Proof.AttentionSpec
import proofs.«156186_j63642825392306_2_alg».proof.Proof.LibHostLayers
import Idealize.ShloMosaic.Lib.ValueIdx
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.LibRowOps Cert.AttentionSpec

/-! ## Two general facts -/

/-- The maximum with minus infinity is the other operand. -/
theorem max_neg_inf (y : EReal) : max (Ideal.ofBits .f32 0xFF800000#32) y = y := by
  simp [Ideal.ofBits, Ideal.ieee]

/-- The index of the vector entry r with the column k put back is (r, k). -/
theorem lift_ix2 {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The array reduction with a maximum body along the rows, from minus infinity, at r: the row maximum of row r. -/
theorem rowmax_host {m n : ℕ} (X : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf X (constant (F := Ideal) (⟨0, ![]⟩ : Shape) .f32 0xFF800000#32) h' hu (ix1 r)
      = rowMax (fun j : Fin n => X (ix2 r j)) := by
  rw [Host.reduce_eq_fold_single FloatOps.maximumf X _ h' h hu]
  have hf : (X ∘ h.lift (ix1 r)) = fun k : Fin n => X (ix2 r k) := funext fun k => congrArg X (lift_ix2 h r k)
  exact congrArg (fun f => Finset.fold max (Ideal.ofBits .f32 0xFF800000#32) f (Finset.univ : Finset (Fin n))) hf

variable (x0 x1 x2 : (⟨S4096x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))
  (x9 : (⟨S1024x1024, .f32⟩ : BufTy).Contents (Elt Ideal)) (x10 : (⟨S1024, .f32⟩ : BufTy).Contents (Elt Ideal))

/-! ## The transposed weight matrices -/

theorem v0_eq : val_main_v0 (F := Ideal) x3 = tr x3 := by
  funext i
  rw [val_main_v0_apply]
  exact congrArg x3 (funext fun a => match a with | ⟨0, _⟩ => rfl | ⟨1, _⟩ => rfl)

theorem v5_eq : val_main_v5 (F := Ideal) x5 = tr x5 := by
  funext i
  rw [val_main_v5_apply]
  exact congrArg x5 (funext fun a => match a with | ⟨0, _⟩ => rfl | ⟨1, _⟩ => rfl)

theorem v10_eq : val_main_v10 (F := Ideal) x7 = tr x7 := by
  funext i
  rw [val_main_v10_apply]
  exact congrArg x7 (funext fun a => match a with | ⟨0, _⟩ => rfl | ⟨1, _⟩ => rfl)

theorem v29_eq : val_main_v29 (F := Ideal) x9 = tr x9 := by
  funext i
  rw [val_main_v29_apply]
  exact congrArg x9 (funext fun a => match a with | ⟨0, _⟩ => rfl | ⟨1, _⟩ => rfl)

/-! ## The three input layers -/

theorem v4_eq : val_main_v4 (F := Ideal) x0 x3 x4 = lin x0 (tr x3) x4 := by
  funext i
  obtain ⟨r, q, rfl⟩ : ∃ (r : Fin 4096) (q : Fin 1024), i = ix2 r q := ⟨i 0, i 1, eq_ix2 i⟩
  rw [lin_ix2, ← v0_eq]
  unfold val_main_v4 val_main_v3 val_main_v2 val_main_v1
  exact Cert.LibHostLayers.affine_host_apply dot_S4096x1024_S1024x1024_S4096x1024_1_0_0_1_n_n rfl rfl
    lhs_main_v1_0 lhs_main_v1_1 rhs_main_v1_0 rhs_main_v1_1 x0 (val_main_v0 (F := Ideal) x3) x4
    bcast_S1024_S1x1024_1 bcast_S1x1024_S4096x1024_0_1 r q

theorem v9_eq : val_main_v9 (F := Ideal) x1 x5 x6 = lin x1 (tr x5) x6 := by
  funext i
  obtain ⟨r, q, rfl⟩ : ∃ (r : Fin 4096) (q : Fin 1024), i = ix2 r q := ⟨i 0, i 1, eq_ix2 i⟩
  rw [lin_ix2, ← v5_eq]
  unfold val_main_v9 val_main_v8 val_main_v7 val_main_v6
  exact Cert.LibHostLayers.affine_host_apply dot_S4096x1024_S1024x1024_S4096x1024_1_0_0_1_n_n rfl rfl
    lhs_main_v6_0 lhs_main_v6_1 rhs_main_v6_0 rhs_main_v6_1 x1 (val_main_v5 (F := Ideal) x5) x6
    bcast_S1024_S1x1024_1 bcast_S1x1024_S4096x1024_0_1 r q

theorem v14_eq : val_main_v14 (F := Ideal) x2 x7 x8 = lin x2 (tr x7) x8 := by
  funext i
  obtain ⟨r, q, rfl⟩ : ∃ (r : Fin 4096) (q : Fin 1024), i = ix2 r q := ⟨i 0, i 1, eq_ix2 i⟩
  rw [lin_ix2, ← v10_eq]
  unfold val_main_v14 val_main_v13 val_main_v12 val_main_v11
  exact Cert.LibHostLayers.affine_host_apply dot_S4096x1024_S1024x1024_S4096x1024_1_0_0_1_n_n rfl rfl
    lhs_main_v11_0 lhs_main_v11_1 rhs_main_v11_0 rhs_main_v11_1 x2 (val_main_v10 (F := Ideal) x7) x8
    bcast_S1024_S1x1024_1 bcast_S1x1024_S4096x1024_0_1 r q

/-! ## The scores -/

/-- The score array at (r, j): row r of the projected queries against row j of the projected keys. -/
theorem v16_ix2 (r j : Fin 4096) :
    val_main_v16 (F := Ideal) x0 x1 x3 x4 x5 x6 (ix2 r j)
      = scoreRow (rowOf (val_main_v4 (F := Ideal) x0 x3 x4) r) (val_main_v9 (F := Ideal) x1 x5 x6) j := by
  rw [val_main_v16_apply]
  refine Finset.sum_congr rfl fun k _ => ?_
  rw [val_main_v15_apply]
  have e1 : lidx_main_v16 (ix2 r j) k = ix2 r k := funext fun a => match a with | ⟨0, _⟩ => rfl | ⟨1, _⟩ => rfl
  have e2 : idx_main_v15 (ridx_main_v16 (ix2 r j) k) = ix2 j k :=
    funext fun a => match a with | ⟨0, _⟩ => rfl | ⟨1, _⟩ => rfl
  rw [e1, e2]
  rfl

theorem scores_eq (r : Fin 4096) :
    (fun j : Fin 4096 => val_main_v16 (F := Ideal) x0 x1 x3 x4 x5 x6 (ix2 r j))
      = scoreRow (rowOf (val_main_v4 (F := Ideal) x0 x3 x4) r) (val_main_v9 (F := Ideal) x1 x5 x6) :=
  funext fun j => v16_ix2 x0 x1 x3 x4 x5 x6 r j

/-! ## The row maximum -/

theorem v19_ix1 (r : Fin 4096) :
    val_main_v19 (F := Ideal) x0 x1 x3 x4 x5 x6 (ix1 r)
      = rowMax (fun j : Fin 4096 => val_main_v16 (F := Ideal) x0 x1 x3 x4 x5 x6 (ix2 r j)) := by
  rw [val_main_v19_apply, val_main_v18_apply, val_main_cst_0_apply]
  show max (Ideal.ofBits .f32 0xFF800000#32) (val_main_v17 (F := Ideal) x0 x1 x3 x4 x5 x6 (ix1 r)) = _
  rw [max_neg_inf]
  unfold val_main_v17 val_main_cst
  exact rowmax_host _ _ (by decide) _ r

theorem v21_ix2 (r j : Fin 4096) :
    val_main_v21 (F := Ideal) x0 x1 x3 x4 x5 x6 (ix2 r j)
      = rowMax (fun j' : Fin 4096 => val_main_v16 (F := Ideal) x0 x1 x3 x4 x5 x6 (ix2 r j')) := by
  rw [val_main_v21_apply, val_main_v20_apply]
  have e : idx_main_v20 (idx_main_v21 (ix2 r j)) = ix1 r := funext fun a => match a with | ⟨0, _⟩ => rfl
  rw [e, v19_ix1]

/-! ## The exponentials, their row sum, the weights -/

theorem v23_ix2 (r j : Fin 4096) :
    val_main_v23 (F := Ideal) x0 x1 x3 x4 x5 x6 (ix2 r j)
      = Ideal.exp (val_main_v16 (F := Ideal) x0 x1 x3 x4 x5 x6 (ix2 r j)
          - rowMax (fun j' : Fin 4096 => val_main_v16 (F := Ideal) x0 x1 x3 x4 x5 x6 (ix2 r j'))) := by
  rw [val_main_v23_apply, val_main_v22_apply, v21_ix2]
  rfl

theorem v26_ix2 (r j : Fin 4096) :
    val_main_v26 (F := Ideal) x0 x1 x3 x4 x5 x6 (ix2 r j)
      = ∑ k : Fin 4096, val_main_v23 (F := Ideal) x0 x1 x3 x4 x5 x6 (ix2 r k) := by
  rw [val_main_v26_apply, val_main_v25_apply]
  have e : idx_main_v25 (idx_main_v26 (ix2 r j)) = ix1 r := funext fun a => match a with | ⟨0, _⟩ => rfl
  have z : val_main_cst_1 (F := Ideal) (Shape.Idx.first h_S_) = 0 := Ideal.ofBits_zero_f32
  rw [e, val_main_v24_apply, z, zero_add]
  refine Finset.sum_congr rfl fun k _ => congrArg _ ?_
  exact funext fun a => match a with | ⟨0, _⟩ => rfl | ⟨1, _⟩ => rfl

theorem v27_ix2 (r j : Fin 4096) :
    val_main_v27 (F := Ideal) x0 x1 x3 x4 x5 x6 (ix2 r j)
      = softmaxRow (fun j' : Fin 4096 => val_main_v16 (F := Ideal) x0 x1 x3 x4 x5 x6 (ix2 r j')) j := by
  rw [val_main_v27_apply, v26_ix2, v23_ix2]
  exact congrArg (Ideal.div _) (Finset.sum_congr rfl fun k _ => v23_ix2 x0 x1 x3 x4 x5 x6 r k)

theorem weights_eq (r : Fin 4096) :
    (fun j : Fin 4096 => val_main_v27 (F := Ideal) x0 x1 x3 x4 x5 x6 (ix2 r j))
      = softmaxRow (scoreRow (rowOf (val_main_v4 (F := Ideal) x0 x3 x4) r) (val_main_v9 (F := Ideal) x1 x5 x6)) := by
  funext j
  rw [v27_ix2, scores_eq]

/-! ## The attended values and the output layer -/

theorem v28_ix2 (r : Fin 4096) (d : Fin 1024) :
    val_main_v28 (F := Ideal) x0 x1 x2 x3 x4 x5 x6 x7 x8 (ix2 r d)
      = mixRow (fun j : Fin 4096 => val_main_v27 (F := Ideal) x0 x1 x3 x4 x5 x6 (ix2 r j))
          (val_main_v14 (F := Ideal) x2 x7 x8) d := by
  rw [val_main_v28_apply]
  refine Finset.sum_congr rfl fun k _ => ?_
  have e1 : lidx_main_v28 (ix2 r d) k = ix2 r k := funext fun a => match a with | ⟨0, _⟩ => rfl | ⟨1, _⟩ => rfl
  have e2 : ridx_main_v28 (ix2 r d) k = ix2 k d := funext fun a => match a with | ⟨0, _⟩ => rfl | ⟨1, _⟩ => rfl
  rw [e1, e2]

theorem v33_ix2 (r : Fin 4096) (e : Fin 1024) :
    val_main_v33 (F := Ideal) x0 x1 x2 x3 x4 x5 x6 x7 x8 x9 x10 (ix2 r e)
      = affine (rowOf (val_main_v28 (F := Ideal) x0 x1 x2 x3 x4 x5 x6 x7 x8) r) (val_main_v29 (F := Ideal) x9) x10 e := by
  unfold val_main_v33 val_main_v32 val_main_v31 val_main_v30
  exact Cert.LibHostLayers.affine_host_apply dot_S4096x1024_S1024x1024_S4096x1024_1_0_0_1_n_n rfl rfl
    lhs_main_v30_0 lhs_main_v30_1 rhs_main_v30_0 rhs_main_v30_1 (val_main_v28 (F := Ideal) x0 x1 x2 x3 x4 x5 x6 x7 x8)
    (val_main_v29 (F := Ideal) x9) x10 bcast_S1024_S1x1024_1 bcast_S1x1024_S4096x1024_0_1 r e

/-! ## The two results -/

/-- The program's attention weights are the row-by-row statement's. -/
theorem ref_w (x0 x1 : (⟨S4096x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) :
    val_main_v27 (F := Ideal) x0 x1 x3 x4 x5 x6 = resultW x0 x1 x3 x4 x5 x6 := by
  funext i
  obtain ⟨r, j, rfl⟩ : ∃ (r j : Fin 4096), i = ix2 r j := ⟨i 0, i 1, eq_ix2 i⟩
  rw [v27_ix2, scores_eq, v4_eq, v9_eq]
  rfl

/-- The program's attended and projected values are the row-by-row statement's. -/
theorem ref_x (x0 x1 x2 : (⟨S4096x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal)) :
    val_main_v33 (F := Ideal) x0 x1 x2 x3 x4 x5 x6 x7 x8 x9 x10 = resultX x0 x1 x2 x3 x4 x5 x6 x7 x8 x9 x10 := by
  funext i
  obtain ⟨r, e, rfl⟩ : ∃ (r : Fin 4096) (e : Fin 1024), i = ix2 r e := ⟨i 0, i 1, eq_ix2 i⟩
  have hrow : rowOf (val_main_v28 (F := Ideal) x0 x1 x2 x3 x4 x5 x6 x7 x8) r
      = mixRow (softmaxRow (scoreRow (rowOf (lin x0 (tr x3) x4) r) (lin x1 (tr x5) x6))) (lin x2 (tr x7) x8) := by
    funext d
    show val_main_v28 (F := Ideal) x0 x1 x2 x3 x4 x5 x6 x7 x8 (ix2 r d) = _
    rw [v28_ix2, weights_eq, v14_eq, v4_eq, v9_eq]
  rw [v33_ix2, hrow, v29_eq]
  rfl

end Cert.ReferenceIdeal.RefValue

end
-- ==== Proof.lean ====
/-
  Un-scaled single-head attention over 4096 rows of width 1024: a kernel program against its plain reference, on the
  extended reals.

  Both programs compute, from queries, keys and values `q k v` and four weight matrices with biases,
  `qp = q · Wqᵀ + bq`, `kp = k · Wkᵀ + bk`, `vp = v · Wvᵀ + bv`, the scores `qp · kpᵀ`, their row-wise softmax `w`
  (each row less its maximum, exponentiated, divided by the row's sum), and `x = (w · vp) · Woᵀ + bo`; the results are
  `x` and `w`. The kernel program transposes the weights on the host, runs one pipelined region per projection over
  blocks of 1024 rows and one region for the attention and the output layer over blocks of 128 query rows; the reference
  applies the same operations to whole arrays. In exact arithmetic a change of float format is the identity, a matrix unit's
  product into a zero accumulator and the host's product are the same sum of products, and a row maximum is the same fold
  of `max` from minus infinity, so both programs' results are the functions `Cert.AttentionSpec.resultX` and `resultW` of
  the arguments, and no finiteness of the inputs is needed.
-/
import proofs.«156186_j63642825392306_2_alg».proof.Defs
import proofs.«156186_j63642825392306_2_alg».proof.Proof.Gen.Kernel
import proofs.«156186_j63642825392306_2_alg».proof.Proof.Gen.Kernel.Frame
import proofs.«156186_j63642825392306_2_alg».proof.Proof.Gen.KernelIdeal
import proofs.«156186_j63642825392306_2_alg».proof.Proof.Gen.KernelIdeal.Frame
import proofs.«156186_j63642825392306_2_alg».proof.Proof.Gen.ReferenceIdeal
import proofs.«156186_j63642825392306_2_alg».proof.Proof.Gen.ReferenceIdeal.Run
import proofs.«156186_j63642825392306_2_alg».proof.Proof.Gen.ReferenceIdeal.Read
import proofs.«156186_j63642825392306_2_alg».proof.Proof.Gen.Pre_finite_inputs
import proofs.«156186_j63642825392306_2_alg».proof.Proof.AttentionSpec
import proofs.«156186_j63642825392306_2_alg».proof.Proof.KernelRun
import proofs.«156186_j63642825392306_2_alg».proof.Proof.KernelValue
import proofs.«156186_j63642825392306_2_alg».proof.Proof.ProjectionArrays
import proofs.«156186_j63642825392306_2_alg».proof.Proof.AttentionArrays
import proofs.«156186_j63642825392306_2_alg».proof.Proof.ReferenceValue
import Idealize.ShloMosaic.Adequacy
import Idealize.ShloMosaic.Init

set_option maxRecDepth 16384

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- On the extended reals the kernel program and the reference, run from memories that agree on the eleven arguments,
    both end with the same two arrays: the attended and projected output `Cert.AttentionSpec.resultX` and the attention
    weights `Cert.AttentionSpec.resultW` of the arguments. The kernel's side is its run read through the four regions; the
    reference's side is its run read one operation at a time. No step uses that the inputs are finite. -/
theorem algebraic : Cert.algebraic_KernelIdeal_ReferenceIdeal := by
  intro m ρ m' ρ' _ hagree
  refine ⟨fun c => Cert.AttentionSpec.resultX
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    fun c => Cert.AttentionSpec.resultW
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun _ h c =>
      ⟨(h c).1.trans (Cert.KernelIdeal.Chain.result_x m ρ Cert.KernelIdeal.ProjectionArrays.proj0_array Cert.KernelIdeal.ProjectionArrays.proj1_array Cert.KernelIdeal.ProjectionArrays.proj2_array Cert.KernelIdeal.AttentionArrays.attended_array c),
       (h c).2.1.trans (Cert.KernelIdeal.Chain.result_weights m ρ Cert.KernelIdeal.ProjectionArrays.proj0_array Cert.KernelIdeal.ProjectionArrays.proj1_array Cert.KernelIdeal.AttentionArrays.weights_array c), (h c).2.2⟩)
      (Cert.KernelIdeal.RunValue.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v33_eq, Cert.ReferenceIdeal.RefValue.ref_x]
      obtain ⟨e0, e1, e2, e3, e4, e5, e6, e7, e8, e9, e10⟩ := hagree c
      rw [e0, e1, e2, e3, e4, e5, e6, e7, e8, e9, e10]
    · rw [Cert.ReferenceIdeal.Read.val_main_v27_eq, Cert.ReferenceIdeal.RefValue.ref_w]
      obtain ⟨e0, e1, e2, e3, e4, e5, e6, e7, e8, e9, e10⟩ := hagree c
      rw [e0, e1, e3, e4, e5, e6]

/-- The certificate: the three frames, the (empty) list of idealization rewrites, and the equality of results. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
